-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S128x128 : Shape := ⟨2, ![128, 128]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S128x128 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S128x128 : Shape := ⟨2, ![128, 128]⟩
abbrev S_ : Shape := ⟨0, ![]⟩
abbrev S128x256 : Shape := ⟨2, ![128, 256]⟩
abbrev S256x256 : Shape := ⟨2, ![256, 256]⟩
abbrev S8192x4096 : Shape := ⟨2, ![8192, 4096]⟩
abbrev S512x4096 : Shape := ⟨2, ![512, 4096]⟩
abbrev S512x256 : Shape := ⟨2, ![512, 256]⟩
abbrev S512 : Shape := ⟨1, ![512]⟩
abbrev S512x1 : Shape := ⟨2, ![512, 1]⟩
abbrev S4096x512 : Shape := ⟨2, ![4096, 512]⟩
abbrev S1x4096 : Shape := ⟨2, ![1, 4096]⟩
abbrev S256x4096 : Shape := ⟨2, ![256, 4096]⟩

abbrev nBuf : Space → Nat
  | .hbm => 21
  | .vmem => 18
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S128x128, .f32⟩
  | .hbm, ⟨4, _⟩ => ⟨S128x128, .f32⟩
  | .hbm, ⟨5, _⟩ => ⟨S_, .f32⟩
  | .hbm, ⟨6, _⟩ => ⟨S128x128, .f32⟩
  | .hbm, ⟨7, _⟩ => ⟨S128x256, .f32⟩
  | .hbm, ⟨8, _⟩ => ⟨S128x256, .f32⟩
  | .hbm, ⟨9, _⟩ => ⟨S256x256, .f32⟩
  | .hbm, ⟨10, _⟩ => ⟨S_, .f32⟩
  | .hbm, ⟨11, _⟩ => ⟨S128x128, .f32⟩
  | .hbm, ⟨12, _⟩ => ⟨S128x256, .f32⟩
  | .hbm, ⟨13, _⟩ => ⟨S128x256, .f32⟩
  | .hbm, ⟨14, _⟩ => ⟨S256x256, .f32⟩
  | .hbm, ⟨15, _⟩ => ⟨S8192x4096, .f32⟩
  | .hbm, ⟨16, _⟩ => ⟨S8192x4096, .bf16⟩
  | .hbm, ⟨17, _⟩ => ⟨S4096x4096, .bf16⟩
  | .hbm, ⟨18, _⟩ => ⟨S1x4096, .f32⟩
  | .hbm, ⟨19, _⟩ => ⟨S8192x4096, .f32⟩
  | .hbm, ⟨20, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S256x256, .f32⟩
  | .local _ .vmem, ⟨3, _⟩ => ⟨S256x256, .f32⟩
  | .local _ .vmem, ⟨4, _⟩ => ⟨S512x4096, .bf16⟩
  | .local _ .vmem, ⟨5, _⟩ => ⟨S512x4096, .bf16⟩
  | .local _ .vmem, ⟨6, _⟩ => ⟨S512x4096, .f32⟩
  | .local _ .vmem, ⟨7, _⟩ => ⟨S512x4096, .f32⟩
  | .local _ .vmem, ⟨8, _⟩ => ⟨S256x256, .f32⟩
  | .local _ .vmem, ⟨9, _⟩ => ⟨S256x256, .f32⟩
  | .local _ .vmem, ⟨10, _⟩ => ⟨S4096x512, .bf16⟩
  | .local _ .vmem, ⟨11, _⟩ => ⟨S4096x512, .bf16⟩
  | .local _ .vmem, ⟨12, _⟩ => ⟨S256x4096, .bf16⟩
  | .local _ .vmem, ⟨13, _⟩ => ⟨S256x4096, .bf16⟩
  | .local _ .vmem, ⟨14, _⟩ => ⟨S4096x4096, .bf16⟩
  | .local _ .vmem, ⟨15, _⟩ => ⟨S1x4096, .f32⟩
  | .local _ .vmem, ⟨16, _⟩ => ⟨S256x4096, .f32⟩
  | .local _ .vmem, ⟨17, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S128x128_S128x128_1_0 : S128x128.Transposes [1, 0] S128x128
  bcast_S_S128x128 : S_.BroadcastsInDim S128x128 (![] : Fin 0 → Fin S128x128.rank)
  concatenates_S128x128_S128x128_S128x256_d1 : Shape.Concatenates [S128x128, S128x128] S128x256 1
  concatenates_S128x256_S128x256_S256x256_d0 : Shape.Concatenates [S128x256, S128x256] S256x256 0
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S512x4096_o0_0_S512x256 : S512x4096.Slices ![0, 0] S512x256
  slices_S512x4096_o0_256_S512x256 : S512x4096.Slices ![0, 256] S512x256
  slices_S512x4096_o0_512_S512x256 : S512x4096.Slices ![0, 512] S512x256
  slices_S512x4096_o0_768_S512x256 : S512x4096.Slices ![0, 768] S512x256
  slices_S512x4096_o0_1024_S512x256 : S512x4096.Slices ![0, 1024] S512x256
  slices_S512x4096_o0_1280_S512x256 : S512x4096.Slices ![0, 1280] S512x256
  slices_S512x4096_o0_1536_S512x256 : S512x4096.Slices ![0, 1536] S512x256
  slices_S512x4096_o0_1792_S512x256 : S512x4096.Slices ![0, 1792] S512x256
  slices_S512x4096_o0_2048_S512x256 : S512x4096.Slices ![0, 2048] S512x256
  slices_S512x4096_o0_2304_S512x256 : S512x4096.Slices ![0, 2304] S512x256
  slices_S512x4096_o0_2560_S512x256 : S512x4096.Slices ![0, 2560] S512x256
  slices_S512x4096_o0_2816_S512x256 : S512x4096.Slices ![0, 2816] S512x256
  slices_S512x4096_o0_3072_S512x256 : S512x4096.Slices ![0, 3072] S512x256
  slices_S512x4096_o0_3328_S512x256 : S512x4096.Slices ![0, 3328] S512x256
  slices_S512x4096_o0_3584_S512x256 : S512x4096.Slices ![0, 3584] S512x256
  slices_S512x4096_o0_3840_S512x256 : S512x4096.Slices ![0, 3840] S512x256
  concatenates_S512x256_S512x256_S512x256_S512x256_S512x256_S512x256_S512x256_S512x256_S512x256_S512x256_S512x256_S512x256_S512x256_S512x256_S512x256_S512x256_S512x4096_d1 : Shape.Concatenates [S512x256, S512x256, S512x256, S512x256, S512x256, S512x256, S512x256, S512x256, S512x256, S512x256, S512x256, S512x256, S512x256, S512x256, S512x256, S512x256] S512x4096 1
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  transposes_S512x4096_p1_0_S4096x512 : S512x4096.Transposes [1, 0] S4096x512
  inb_S4096x512_S4096x512_0_0 : ∀ a, (![0, 0] : Fin 2 → Nat) a + S4096x512.size a ≤ S4096x512.size a
  h_S4096x512 : 0 < S4096x512.numel
  packedbf16_S4096x512_S4096x512_0_0 : (Rect.unit (s := S4096x512) ![0, 0] S4096x512.size inb_S4096x512_S4096x512_0_0).PackedRows (EltTy.packing .bf16)
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S512x256_S256x256_S512x256_1_0_0_1_n_n_wf : DotDims.WF S512x256 S256x256 S512x256 [1] [0] [0] [1] [] []
  dot_S256x4096_S4096x4096_S256x4096_1_0_0_1_n_n_wf : DotDims.WF S256x4096 S4096x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .bf16 = 32 ∨ (Rect.block (s := S8192x4096) S512x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S4096x4096.size a
  hwx1_3 : ∀ i : grid1.Coords, EltTy.bits .bf16 = 32 ∨ (Rect.block (s := S4096x4096) S4096x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S8192x4096.size a
  hwx2_0 : ∀ i : grid2.Coords, EltTy.bits .bf16 = 32 ∨ (Rect.block (s := S8192x4096) S256x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x4096.size a ≤ S4096x4096.size a
  hwx2_1 : ∀ i : grid2.Coords, EltTy.bits .bf16 = 32 ∨ (Rect.block (s := S4096x4096) S4096x4096.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4096.size a ≤ S1x4096.size a
  hwx2_2 : ∀ i : grid2.Coords, EltTy.bits .f32 = 32 ∨ (Rect.block (s := S1x4096) S1x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x4096.size a ≤ S8192x4096.size a
  hwx2_3 : ∀ i : grid2.Coords, EltTy.bits .f32 = 32 ∨ (Rect.block (s := S8192x4096) S256x4096.size (cc2_transform_3 i) (hinb2_3 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf

abbrev win0_0 : Pipeline.Window sig grid0 :=
  Pipeline.Window.ofSpec (Memref.whole main_v9) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S4096x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S4096x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S256x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S128x128 : Shape := ⟨2, ![128, 128]⟩
abbrev S4x2048x32x128 : Shape := ⟨4, ![4, 2048, 32, 128]⟩
abbrev S_ : Shape := ⟨0, ![]⟩
abbrev S4x2048 : Shape := ⟨2, ![4, 2048]⟩
abbrev S4x2048x1 : Shape := ⟨3, ![4, 2048, 1]⟩
abbrev S4096x32x128 : Shape := ⟨3, ![4096, 32, 128]⟩
abbrev S4096x1 : Shape := ⟨2, ![4096, 1]⟩
abbrev S1x1x4096 : Shape := ⟨3, ![1, 1, 4096]⟩

abbrev nBuf : Space → Nat
  | .hbm => 106
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S128x128, .f32⟩
  | .hbm, ⟨4, _⟩ => ⟨S4x2048x32x128, .f32⟩
  | .hbm, ⟨5, _⟩ => ⟨S4x2048x32x128, .f32⟩
  | .hbm, ⟨6, _⟩ => ⟨S4x2048x4096, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S4x2048x4096, .f32⟩
  | .hbm, ⟨35, _⟩ => ⟨S4x2048x4096, .f32⟩
  | .hbm, ⟨36, _⟩ => ⟨S4x2048x4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4x2048x4096, .f32⟩
  | .hbm, ⟨41, _⟩ => ⟨S4x2048x4096, .f32⟩
  | .hbm, ⟨42, _⟩ => ⟨S_, .f32⟩
  | .hbm, ⟨43, _⟩ => ⟨S4x2048x4096, .f32⟩
  | .hbm, ⟨44, _⟩ => ⟨S4x2048x4096, .f32⟩
  | .hbm, ⟨45, _⟩ => ⟨S4x2048x4096, .f32⟩
  | .hbm, ⟨46, _⟩ => ⟨S4x2048x4096, .f32⟩
  | .hbm, ⟨47, _⟩ => ⟨S4x2048x4096, .f32⟩
  | .hbm, ⟨48, _⟩ => ⟨S4x2048x4096, .f32⟩
  | .hbm, ⟨49, _⟩ => ⟨S128x128, .f32⟩
  | .hbm, ⟨50, _⟩ => ⟨S4x2048x32x128, .f32⟩
  | .hbm, ⟨51, _⟩ => ⟨S4x2048x32x128, .f32⟩
  | .hbm, ⟨52, _⟩ => ⟨S4x2048x4096, .f32⟩
  | .hbm, ⟨53, _⟩ => ⟨S4096x32x128, .f32⟩
  | .hbm, ⟨54, _⟩ => ⟨S4096x32x128, .f32⟩
  | .hbm, ⟨55, _⟩ => ⟨S4096x4096, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S4096x1, .f32⟩
  | .hbm, ⟨77, _⟩ => ⟨S4096x1, .f32⟩
  | .hbm, ⟨78, _⟩ => ⟨S4096x1, .f32⟩
  | .hbm, ⟨79, _⟩ => ⟨S4096x4096, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S4096x4096, .f32⟩
  | .hbm, ⟨90, _⟩ => ⟨S4096x4096, .f32⟩
  | .hbm, ⟨91, _⟩ => ⟨S_, .f32⟩
  | .hbm, ⟨92, _⟩ => ⟨S4096x4096, .f32⟩
  | .hbm, ⟨93, _⟩ => ⟨S4096x4096, .f32⟩
  | .hbm, ⟨94, _⟩ => ⟨S4096x4096, .f32⟩
  | .hbm, ⟨95, _⟩ => ⟨S4096x4096, .f32⟩
  | .hbm, ⟨96, _⟩ => ⟨S4096x4096, .f32⟩
  | .hbm, ⟨97, _⟩ => ⟨S4096x4096, .f32⟩
  | .hbm, ⟨98, _⟩ => ⟨S128x128, .f32⟩
  | .hbm, ⟨99, _⟩ => ⟨S4096x32x128, .f32⟩
  | .hbm, ⟨100, _⟩ => ⟨S4096x32x128, .f32⟩
  | .hbm, ⟨101, _⟩ => ⟨S4096x4096, .f32⟩
  | .hbm, ⟨102, _⟩ => ⟨S4x2048x4096, .f32⟩
  | .hbm, ⟨103, _⟩ => ⟨S1x1x4096, .f32⟩
  | .hbm, ⟨104, _⟩ => ⟨S4x2048x4096, .f32⟩
  | .hbm, ⟨105, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_cst_6 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_call4_v0 : Ref sig .tc := ⟨.hbm, 73, rfl⟩
abbrev main_call4_v1 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_cst_14 : Ref sig .tc := ⟨.hbm, 87, rfl⟩
abbrev main_call7_v0 : Ref sig .tc := ⟨.hbm, 88, rfl⟩
abbrev main_call7_v1 : Ref sig .tc := ⟨.hbm, 89, rfl⟩
abbrev main_call7_v2 : Ref sig .tc := ⟨.hbm, 90, rfl⟩
abbrev main_call7_v3 : Ref sig .tc := ⟨.hbm, 91, rfl⟩
abbrev main_call7_v4 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]

class Facts₀ : Prop where
  shapeCasts_S4x2048x4096_S4x2048x32x128 : S4x2048x4096.ShapeCasts S4x2048x32x128
  shapeCasts_S4x2048x32x128_S4x2048x4096 : S4x2048x32x128.ShapeCasts S4x2048x4096
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  transposes_S128x128_S128x128_1_0 : S128x128.Transposes [1, 0] S128x128
  shapeCasts_S4096x4096_S4096x32x128 : S4096x4096.ShapeCasts S4096x32x128
  shapeCasts_S4096x32x128_S4096x4096 : S4096x32x128.ShapeCasts S4096x4096
  reducesTo_S4096x4096_S4096_d1 : S4096x4096.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x32x128_S128x128_S4x2048x32x128_3_0_012_1_n_n_wf : DotDims.WF S4x2048x32x128 S128x128 S4x2048x32x128 [3] [0] [0, 1, 2] [1] [] []
  dot_S4096x32x128_S128x128_S4096x32x128_2_0_01_1_n_n_wf : DotDims.WF S4096x32x128 S128x128 S4096x32x128 [2] [0] [0, 1] [1] [] []
  dot_S4x2048x4096_S4096x4096_S4x2048x4096_2_1_01_0_n_n_wf : DotDims.WF S4x2048x4096 S4096x4096 S4x2048x4096 [2] [1] [0, 1] [0] [] []

variable [Facts₀]

def dot_S4x2048x32x128_S128x128_S4x2048x32x128_3_0_012_1_n_n : DotDims S4x2048x32x128 S128x128 S4x2048x32x128 where
  lhsContracting := [3]
  rhsContracting := [0]
  lhsNonContracting := [0, 1, 2]
  rhsNonContracting := [1]
  lhsBatch := []
  rhsBatch := []
  wf := dot_S4x2048x32x128_S128x128_S4x2048x32x128_3_0_012_1_n_n_wf
def dot_S4096x32x128_S128x128_S4096x32x128_2_0_01_1_n_n : DotDims S4096x32x128 S128x128 S4096x32x128 where
  lhsContracting := [2]
  rhsContracting := [0]
  lhsNonContracting := [0, 1]
  rhsNonContracting := [1]
  lhsBatch := []
  rhsBatch := []
  wf := dot_S4096x32x128_S128x128_S4096x32x128_2_0_01_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics of the fake-quantized linear layer, stated on rows of extended reals.

  A row of 4096 entries is rotated block by block (blocks of 128 entries against a 128 x 128 matrix, or blocks of
  256 entries against a 256 x 256 matrix), its range is read off (the minimum and the maximum of the rotated row, each
  clamped against zero), a step size and a zero point are formed, every entry is divided by the step, rounded,
  shifted, clamped to [0, 15], shifted back and multiplied by the step, and the row is rotated back. The layer is
  the product of the rows so treated of the activations with the rows so treated of the weights, plus the bias.

  Two spellings of the same row function are stated: one with 256-wide blocks against a block-diagonal matrix and the
  rounding applied directly; one with 128-wide blocks, the rounding written as v + (round v - v) and the
  negation of the clamped minimum written as such. They agree on rows of real numbers.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A row of 4096 extended reals. -/
abbrev Row := Fin 4096 → EReal
/-- A square matrix of extended reals. -/
abbrev Mat (n : ℕ) := Fin n → Fin n → EReal

/-- Rounding to the nearest integer, ties to even, the infinities fixed. -/
abbrev rnd (x : EReal) : EReal := Ideal.liftRound Ideal.roundHalfEven x

/-- The number of quantization steps, 15, as the float word that denotes it. -/
abbrev c15 : EReal := Ideal.ofBits .f32 0x41700000#32
/-- The floor of the step size, the float nearest 1e-5. -/
abbrev cEps : EReal := Ideal.ofBits .f32 0x3727C5AC#32
/-- The word of plus infinity, the start of a minimum. -/
abbrev cTop : EReal := Ideal.ofBits .f32 0x7F800000#32
/-- The word of minus infinity, the start of a maximum. -/
abbrev cBot : EReal := Ideal.ofBits .f32 0xFF800000#32

/-- Entry `f` of the row rotated in blocks of 128: the entries of `f`'s block against column `f % 128` of `R`. -/
def rot (x : Row) (R : Mat 128) : Row := fun f =>
  ∑ b : Fin 128, x ⟨128 * (f.val / 128) + b.val, by have := f.isLt; have := b.isLt; omega⟩
    * R b ⟨f.val % 128, Nat.mod_lt _ (by norm_num)⟩

/-- Entry `f` of the row rotated in blocks of 256: the entries of `f`'s block against column `f % 256` of `M`. -/
def rot2 (x : Row) (M : Mat 256) : Row := fun f =>
  ∑ j : Fin 256, x ⟨256 * (f.val / 256) + j.val, by have := f.isLt; have := j.isLt; omega⟩
    * M j ⟨f.val % 256, Nat.mod_lt _ (by norm_num)⟩

/-- The 256 x 256 matrix with `R` in its two diagonal blocks and zero elsewhere. -/
def bd (R : Mat 128) : Mat 256 := fun j c =>
  if j.val / 128 = c.val / 128 then
    R ⟨j.val % 128, Nat.mod_lt _ (by norm_num)⟩ ⟨c.val % 128, Nat.mod_lt _ (by norm_num)⟩
  else 0

/-- The transposed matrix. -/
def tr {n : ℕ} (R : Mat n) : Mat n := fun a b => R b a

/-- The least entry of a row, from plus infinity. -/
def rowMin (y : Row) : EReal := (Finset.univ : Finset (Fin 4096)).fold min cTop y
/-- The greatest entry of a row, from minus infinity. -/
def rowMax (y : Row) : EReal := (Finset.univ : Finset (Fin 4096)).fold max cBot y

/-- The row's minimum clamped to be at most zero. -/
def lo (y : Row) : EReal := min (rowMin y) 0
/-- The row's maximum clamped to be at least zero. -/
def hi (y : Row) : EReal := max (rowMax y) 0
/-- The step size: the range over 15, at least the floor. -/
def step (y : Row) : EReal := max cEps (Ideal.div (hi y - lo y) c15)

/-- The zero point, the negation written as a difference from zero. -/
def zpK (y : Row) : EReal := rnd (Ideal.div (0 - lo y) (step y))
/-- The zero point, the negation written as such. -/
def zpR (y : Row) : EReal := rnd (Ideal.div (-(lo y)) (step y))

/-- Quantize and dequantize a row, the rounding applied directly. -/
def dqK (y : Row) : Row := fun f =>
  (min c15 (max 0 (rnd (Ideal.div (y f) (step y)) + zpK y)) - zpK y) * step y
/-- Quantize and dequantize a row, the rounding written `v + (round v - v)`. -/
def dqR (y : Row) : Row := fun f =>
  (min c15 (max 0 ((Ideal.div (y f) (step y) + (rnd (Ideal.div (y f) (step y)) - Ideal.div (y f) (step y))) + zpR y))
    - zpR y) * step y

/-- The fake quantization of a row with 256-wide rotations by `M` and back by `N`. -/
def fqK (x : Row) (M N : Mat 256) : Row := rot2 (dqK (rot2 x M)) N
/-- The fake quantization of a row with 128-wide rotations by `R` and back by its transpose. -/
def fqR (x : Row) (R : Mat 128) : Row := rot (dqR (rot x R)) (tr R)

/-- The linear layer on treated rows: entry `(p, o)` is the product of row `p` of the activations with row `o` of
    the weights, plus the bias at `o`. -/
def lin {n : ℕ} (xq : Fin n → Row) (wq : Fin 4096 → Row) (b : Fin 4096 → EReal) (p : Fin n) (o : Fin 4096) : EReal :=
  (∑ i : Fin 4096, xq p i * wq o i) + b o

/-! ## The arguments as rows -/

/-- Row `p` (of 8192) of the activations `[4, 2048, 4096]` flattened over the first two axes. -/
def rowX (A : (⟨3, ![4, 2048, 4096]⟩ : Shape).Idx → EReal) (p : Fin 8192) : Row := fun f =>
  A (ix3 (⟨p.val / 2048, by have := p.isLt; omega⟩ : Fin 4) (⟨p.val % 2048, Nat.mod_lt _ (by norm_num)⟩ : Fin 2048) f)
/-- Row `o` of the weights `[4096, 4096]`. -/
def rowW (A : (⟨2, ![4096, 4096]⟩ : Shape).Idx → EReal) (o : Fin 4096) : Row := fun f => A (ix2 o f)
/-- The rotation `[128, 128]` as a matrix. -/
def matR (A : (⟨2, ![128, 128]⟩ : Shape).Idx → EReal) : Mat 128 := fun a b => A (ix2 a b)
/-- The bias `[4096]` as a function. -/
def vecB (A : (⟨1, ![4096]⟩ : Shape).Idx → EReal) : Fin 4096 → EReal := fun o => A (ix1 o)

/-- The result array `[4, 2048, 4096]` with 256-wide rotations against block-diagonal matrices. -/
def resK (A0 : (⟨3, ![4, 2048, 4096]⟩ : Shape).Idx → EReal) (A1 : (⟨2, ![4096, 4096]⟩ : Shape).Idx → EReal)
    (A2 : (⟨1, ![4096]⟩ : Shape).Idx → EReal) (A3 : (⟨2, ![128, 128]⟩ : Shape).Idx → EReal) :
    (⟨3, ![4, 2048, 4096]⟩ : Shape).Idx → EReal := fun i =>
  lin (fun p => fqK (rowX A0 p) (bd (matR A3)) (bd (tr (matR A3))))
    (fun o => fqK (rowW A1 o) (bd (matR A3)) (bd (tr (matR A3)))) (vecB A2)
    (⟨2048 * (i 0).val + (i 1).val, by have := (i 0).isLt; have := (i 1).isLt; simp only [Matrix.cons_val_zero, Matrix.cons_val_one] at *; omega⟩ : Fin 8192) (i 2)

/-- The result array `[4, 2048, 4096]` with 128-wide rotations. -/
def resR (A0 : (⟨3, ![4, 2048, 4096]⟩ : Shape).Idx → EReal) (A1 : (⟨2, ![4096, 4096]⟩ : Shape).Idx → EReal)
    (A2 : (⟨1, ![4096]⟩ : Shape).Idx → EReal) (A3 : (⟨2, ![128, 128]⟩ : Shape).Idx → EReal) :
    (⟨3, ![4, 2048, 4096]⟩ : Shape).Idx → EReal := fun i =>
  lin (fun p => fqR (rowX A0 p) (matR A3)) (fun o => fqR (rowW A1 o) (matR A3)) (vecB A2)
    (⟨2048 * (i 0).val + (i 1).val, by have := (i 0).isLt; have := (i 1).isLt; simp only [Matrix.cons_val_zero, Matrix.cons_val_one] at *; omega⟩ : Fin 8192) (i 2)

end Cert.Spec

end
-- ==== Proof.SpecLaws.lean ====
/-
  The two spellings of the fake-quantized row function agree on rows of real numbers.

  Three facts carry the argument. A 256-wide rotation against a block-diagonal matrix is the 128-wide rotation
  against the block: the terms of the off-diagonal half vanish, since zero times any extended real is zero. The
  two spellings of the zero point agree on every row, since zero minus a value is its negation. And on a real
  value v the sum v + (round v - v) is round v; the value in question is an entry of the row divided by the step,
  which is real because the step of a row of reals is a positive real (the clamped minimum and maximum of finitely
  many reals are reals, their difference over fifteen is real, and the floor of the step is a positive real).
-/
import proofs.«178549_j40664750358903_2_alg».proof.Proof.Spec

noncomputable section

namespace Cert.Spec

open Idealize.ShloMosaic Idealize.ShloMosaic.ValueIdx

/-! ## The four float words -/

theorem cTop_eq : cTop = ⊤ := by
  simp [cTop, Ideal.ofBits, Ideal.ieee]
theorem cBot_eq : cBot = ⊥ := by
  simp [cBot, Ideal.ofBits, Ideal.ieee]
theorem c15_eq : c15 = ((15 : ℝ) : EReal) := by
  simp [c15, Ideal.ofBits, Ideal.ieee, -EReal.coe_mul]; norm_num
theorem cEps_pos : ∃ e : ℝ, 0 < e ∧ cEps = (e : EReal) := by
  simp [cEps, Ideal.ofBits, Ideal.ieee, -EReal.coe_mul]

/-! ## Extended reals that are real numbers -/

/-- An extended real that is (the image of) a real number. -/
def IsReal (x : EReal) : Prop := ∃ r : ℝ, x = (r : EReal)

theorem IsReal.zero : IsReal 0 := ⟨0, rfl⟩
theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.min {x y : EReal} (hx : IsReal x) (hy : IsReal y) : IsReal (min x y) := by
  rcases min_choice x y with h | h <;> rw [h] <;> assumption
theorem IsReal.max {x y : EReal} (hx : IsReal x) (hy : IsReal y) : IsReal (max x y) := by
  rcases max_choice x y with h | h <;> rw [h] <;> assumption

/-- A finite sum of reals is a real. -/
theorem IsReal.sum {ι : Type*} (s : Finset ι) (g : ι → EReal) (h : ∀ i, IsReal (g i)) :
    IsReal (∑ i ∈ s, g i) := by
  classical
  induction s using Finset.induction_on with
  | empty => simpa using IsReal.zero
  | insert a s ha ih => rw [Finset.sum_insert ha]; exact (h a).add ih

/-- The minimum of finitely many reals, started from plus infinity, is plus infinity or a real. -/
theorem fold_min_top {ι : Type*} (s : Finset ι) (g : ι → EReal) (h : ∀ i, IsReal (g i)) :
    s.fold min ⊤ g = ⊤ ∨ IsReal (s.fold min ⊤ g) := by
  classical
  induction s using Finset.induction_on with
  | empty => exact Or.inl (Finset.fold_empty)
  | insert a s ha ih =>
    rw [Finset.fold_insert ha]
    rcases ih with e | e
    · rw [e, min_top_right]; exact Or.inr (h a)
    · exact Or.inr ((h a).min e)

/-- The maximum of finitely many reals, started from minus infinity, is minus infinity or a real. -/
theorem fold_max_bot {ι : Type*} (s : Finset ι) (g : ι → EReal) (h : ∀ i, IsReal (g i)) :
    s.fold max ⊥ g = ⊥ ∨ IsReal (s.fold max ⊥ g) := by
  classical
  induction s using Finset.induction_on with
  | empty => exact Or.inl (Finset.fold_empty)
  | insert a s ha ih =>
    rw [Finset.fold_insert ha]
    rcases ih with e | e
    · rw [e, max_bot_right]; exact Or.inr (h a)
    · exact Or.inr ((h a).max e)

/-- The clamped minimum of a row of reals is a real. -/
theorem lo_real (y : Row) (hy : ∀ f, IsReal (y f)) : IsReal (lo y) := by
  unfold lo rowMin
  rw [cTop_eq]
  rcases fold_min_top Finset.univ y hy with e | e
  · rw [e, min_top_left]; exact IsReal.zero
  · exact e.min IsReal.zero

/-- The clamped maximum of a row of reals is a real. -/
theorem hi_real (y : Row) (hy : ∀ f, IsReal (y f)) : IsReal (hi y) := by
  unfold hi rowMax
  rw [cBot_eq]
  rcases fold_max_bot Finset.univ y hy with e | e
  · rw [e, max_bot_left]; exact IsReal.zero
  · exact e.max IsReal.zero

/-- The step of a row of reals is a positive real. -/
theorem step_pos (y : Row) (hy : ∀ f, IsReal (y f)) : ∃ s : ℝ, 0 < s ∧ step y = (s : EReal) := by
  obtain ⟨e, he, hE⟩ := cEps_pos
  obtain ⟨d, hd⟩ := (hi_real y hy).sub (lo_real y hy)
  have hq : Ideal.div (hi y - lo y) c15 = ((d * (1 / 15) : ℝ) : EReal) := by
    rw [c15_eq, Ideal.div_coe (by norm_num), hd, ← EReal.coe_mul]
  refine ⟨max e (d * (1 / 15)), lt_max_of_lt_left he, ?_⟩
  unfold step
  rw [hE, hq]
  exact (EReal.coe_strictMono.monotone.map_max).symm

/-- A real divided by a positive real is a real. -/
theorem div_real {x : EReal} (hx : IsReal x) {s : ℝ} (hs : 0 < s) : IsReal (Ideal.div x (s : EReal)) := by
  rw [Ideal.div_coe hs.ne']
  exact hx.mul (IsReal.coe _)

/-- On a real, rounding written as the value plus the difference to its rounding is the rounding. -/
theorem add_rnd_sub {v : EReal} (hv : IsReal v) : v + (rnd v - v) = rnd v := by
  obtain ⟨r, rfl⟩ := hv
  show (r : EReal) + (((Ideal.roundHalfEven r : ℝ) : EReal) - (r : EReal)) = ((Ideal.roundHalfEven r : ℝ) : EReal)
  rw [← EReal.coe_sub, ← EReal.coe_add]
  congr 1
  ring

/-- The two spellings of the zero point agree on every row. -/
theorem zpK_eq_zpR (y : Row) : zpK y = zpR y := by
  unfold zpK zpR
  rw [zero_sub]

/-- On a row of reals the two spellings of quantize-dequantize agree. -/
theorem dqK_eq_dqR (y : Row) (hy : ∀ f, ∃ r : ℝ, y f = (r : EReal)) : dqK y = dqR y := by
  funext f
  obtain ⟨s, hs, hS⟩ := step_pos y hy
  have hv : IsReal (Ideal.div (y f) (step y)) := by rw [hS]; exact div_real (hy f) hs
  unfold dqK dqR
  rw [add_rnd_sub hv, zpK_eq_zpR]

/-! ## The block-diagonal rotation -/

/-- A 256-wide rotation by the block-diagonal matrix is the 128-wide rotation (no finiteness: 0 * x = 0 for every extended real). -/
theorem rot2_bd (y : Row) (S : Mat 128) : rot2 y (bd S) = rot y S := by
  funext f
  obtain ⟨f, hf⟩ := f
  simp only [rot2, rot, bd]
  refine (Fin.sum_univ_add (a := 128) (b := 128) _).trans ?_
  simp only [Fin.coe_castAdd, Fin.coe_natAdd]
  by_cases h : f % 256 < 128
  · -- the column lies in the first diagonal block: the second half of the sum vanishes
    have h2 : ∑ b : Fin 128, y ⟨256 * (f / 256) + (128 + b.val), by have := b.isLt; omega⟩ *
        (if (128 + b.val) / 128 = f % 256 / 128 then
          S ⟨(128 + b.val) % 128, Nat.mod_lt _ (by norm_num)⟩ ⟨f % 256 % 128, Nat.mod_lt _ (by norm_num)⟩ else 0) = 0 := by
      refine Finset.sum_eq_zero fun b _ => ?_
      have := b.isLt
      rw [if_neg (by omega), mul_zero]
    rw [h2, add_zero]
    refine Finset.sum_congr rfl fun b _ => ?_
    have := b.isLt
    rw [if_pos (by omega)]
    congr 2 <;> (apply Fin.ext; simp only []; omega)
  · -- the column lies in the second diagonal block: the first half of the sum vanishes
    have h1 : ∑ b : Fin 128, y ⟨256 * (f / 256) + b.val, by have := b.isLt; omega⟩ *
        (if b.val / 128 = f % 256 / 128 then
          S ⟨b.val % 128, Nat.mod_lt _ (by norm_num)⟩ ⟨f % 256 % 128, Nat.mod_lt _ (by norm_num)⟩ else 0) = 0 := by
      refine Finset.sum_eq_zero fun b _ => ?_
      have := b.isLt
      rw [if_neg (by omega), mul_zero]
    rw [h1, zero_add]
    refine Finset.sum_congr rfl fun b _ => ?_
    have := b.isLt
    rw [if_pos (by omega)]
    congr 2 <;> (apply Fin.ext; simp only []; omega)

/-! ## The two row functions and the two result arrays -/

/-- A rotated row of reals by a real matrix is a row of reals. -/
theorem rot_real (x : Row) (R : Mat 128) (hx : ∀ f, ∃ r : ℝ, x f = (r : EReal)) (hR : ∀ a b, ∃ r : ℝ, R a b = (r : EReal)) :
    ∀ f, ∃ r : ℝ, rot x R f = (r : EReal) := by
  intro f
  unfold rot
  exact IsReal.sum _ _ fun b => IsReal.mul (hx _) (hR _ _)

theorem fqK_eq_fqR (x : Row) (R : Mat 128) (hx : ∀ f, ∃ r : ℝ, x f = (r : EReal)) (hR : ∀ a b, ∃ r : ℝ, R a b = (r : EReal)) :
    fqK x (bd R) (bd (tr R)) = fqR x R := by
  unfold fqK fqR
  rw [rot2_bd, rot2_bd, dqK_eq_dqR _ (rot_real x R hx hR)]

theorem resK_eq_resR (A0 : (⟨3, ![4, 2048, 4096]⟩ : Shape).Idx → EReal) (A1 : (⟨2, ![4096, 4096]⟩ : Shape).Idx → EReal)
    (A2 : (⟨1, ![4096]⟩ : Shape).Idx → EReal) (A3 : (⟨2, ![128, 128]⟩ : Shape).Idx → EReal)
    (h0 : ∀ i, ∃ r : ℝ, A0 i = (r : EReal)) (h1 : ∀ i, ∃ r : ℝ, A1 i = (r : EReal)) (h3 : ∀ i, ∃ r : ℝ, A3 i = (r : EReal)) :
    resK A0 A1 A2 A3 = resR A0 A1 A2 A3 := by
  have hR : ∀ a b, ∃ r : ℝ, matR A3 a b = (r : EReal) := fun a b => h3 (ix2 a b)
  have e0 : (fun p => fqK (rowX A0 p) (bd (matR A3)) (bd (tr (matR A3)))) = fun p => fqR (rowX A0 p) (matR A3) :=
    funext fun p => fqK_eq_fqR (rowX A0 p) (matR A3) (fun f => h0 _) hR
  have e1 : (fun o => fqK (rowW A1 o) (bd (matR A3)) (bd (tr (matR A3)))) = fun o => fqR (rowW A1 o) (matR A3) :=
    funext fun o => fqK_eq_fqR (rowW A1 o) (matR A3) (fun f => h1 _) hR
  funext i
  unfold resK resR
  rw [e0, e1]

end Cert.Spec

end
-- ==== Proof.Finite.lean ====
/-
  From the precondition to real entries. The precondition says, of each float input, that every entry's absolute
  value is below plus infinity, and joins the four facts by `and`. An extended real whose absolute value is below
  plus infinity is a real number. So under the precondition every entry of the activations, the weights and the
  rotation is a real number (the bias is not needed).
-/
import proofs.«178549_j40664750358903_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

instance : Subsingleton S_.Idx := ⟨fun a b => funext fun d => d.elim0⟩

/-- An extended real whose absolute value compares below the word of plus infinity is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have htop : Ideal.ofBits .f32 0x7F800000#32 = (⊤ : EReal) := by simp [Ideal.ofBits, Ideal.ieee]
  induction x using EReal.rec with
  | bot => exfalso; revert h; rw [htop]; simp [Ideal.cmpf_def, Ideal.cmp, Ideal.absf_def]
  | top => exfalso; revert h; rw [htop]; simp [Ideal.cmpf_def, Ideal.cmp, Ideal.absf_def]
  | coe r => exact ⟨r, rfl⟩

variable [Cert.Pre_finite_inputs.Facts]
open Cert.Pre_finite_inputs.Facts

/-- Under the precondition the activations, the weights and the rotation hold real numbers. -/
theorem real_of_pre (A0 : FVec Ideal S4x2048x4096 .f32) (A1 : FVec Ideal S4096x4096 .f32) (A2 : FVec Ideal S4096 .f32)
    (A3 : FVec Ideal S128x128 .f32) (h : Cert.Pre_finite_inputs.fn (F := Ideal) A0 A1 A2 A3 = fun _ => 1#1) :
    (∀ i, ∃ r : ℝ, A0 i = (r : EReal)) ∧ (∀ i, ∃ r : ℝ, A1 i = (r : EReal)) ∧ (∀ i, ∃ r : ℝ, A3 i = (r : EReal)) := by
  have h0 := congrFun h ix0
  dsimp only [Cert.Pre_finite_inputs.fn, Cert.Pre_finite_inputs.fn_part1, andi] at h0
  obtain ⟨h012, h3⟩ := IntOp.andi_eq_one.1 h0
  obtain ⟨h01, _⟩ := IntOp.andi_eq_one.1 h012
  obtain ⟨h0', h1⟩ := IntOp.andi_eq_one.1 h01
  refine ⟨fun i => ?_, fun i => ?_, fun i => ?_⟩
  · exact real_of_abs_lt _ (Host.reduce_andi_all _ _ reducesTo_S4x2048x4096_S_d0_1_2 h_S_ ix0 h0' i)
  · exact real_of_abs_lt _ (Host.reduce_andi_all _ _ reducesTo_S4096x4096_S_d0_1 h_S_ ix0 h1 i)
  · exact real_of_abs_lt _ (Host.reduce_andi_all _ _ reducesTo_S128x128_S_d0_1 h_S_ ix0 h3 i)

end Cert.Finite

end
-- ==== Proof.BodyStmt.lean ====
/-
  What each kernel body leaves in its output block, stated entry by entry against the row functions of the
  specification: the two quantizing bodies leave, at row `p` and feature `f` (the second one transposed), the fake
  quantization of row `p` of the input block with the two 256 x 256 matrices; the product body leaves the product of
  row `p` of its left block with column `o` of its right block plus the bias row at `o`.
  These are the three statements the launch side of the proof takes as hypotheses and the body side proves.
-/
import proofs.«178549_j40664750358903_2_alg».proof.Proof.Gen.KernelIdeal.Frame
import proofs.«178549_j40664750358903_2_alg».proof.Proof.Spec

noncomputable section

namespace Cert.KBody

open Idealize.ShloMosaic Idealize.ShloMosaic.ValueIdx Cert.KernelIdeal Cert.Spec

/-- The first quantizing body: entry `(p, f)` of its output block. -/
def Out0 : Prop :=
  ∀ (x0 : Vec Ideal S512x4096 .f32) (x1 x2 : Vec Ideal S256x256 .f32) (p : Fin 512) (f : Fin 4096),
    Gen.out0_3 (F := Ideal) x0 x1 x2 (ix2 p f)
      = fqK (fun g => x0 (ix2 p g)) (fun j c => x1 (ix2 j c)) (fun j c => x2 (ix2 j c)) f

/-- The second quantizing body, whose output block is transposed: entry `(f, p)`. -/
def Out1 : Prop :=
  ∀ (x0 : Vec Ideal S512x4096 .f32) (x1 x2 : Vec Ideal S256x256 .f32) (f : Fin 4096) (p : Fin 512),
    Gen.out1_3 (F := Ideal) x0 x1 x2 (ix2 f p)
      = fqK (fun g => x0 (ix2 p g)) (fun j c => x1 (ix2 j c)) (fun j c => x2 (ix2 j c)) f

/-- The product body: entry `(p, o)` of its output block. -/
def Out2 : Prop :=
  ∀ (x0 : Vec Ideal S256x4096 .bf16) (x1 : Vec Ideal S4096x4096 .bf16) (x2 : Vec Ideal S1x4096 .f32)
    (p : Fin 256) (o : Fin 4096),
    Gen.out2_3 (F := Ideal) x0 x1 x2 (ix2 p o)
      = (∑ k : Fin 4096, x0 (ix2 p k) * x1 (ix2 k o)) + x2 (ix2 (0 : Fin 1) o)

end Cert.KBody

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibKeepdims.lean ====
/-
  Keepdims column forms read at an index, and a lane sum read as a sum over the row.

  A row reduction with `keepdims` leaves a column `[a, 1]`: the reduced vector `[a]` is cast to `[a, 1]`
  (entry `(p, 0)` is entry `p`), and the column is broadcast back over the row (entry `(p, c)` is the
  column's entry `(p, 0)`). A sum over axis 1 of an `[a, b]` array, at row `p`, is the sum over `k` of
  the entries `(p, k)`.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- GENERAL LEMMA. An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- GENERAL LEMMA. An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- GENERAL LEMMA. The index a reduction over axis 1 of an `[a, b]` array inserts at row `p` and position `k`
    is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- GENERAL LEMMA. The exact sum over axis 1 of an `[a, b]` array of extended reals, at row `p`, is the sum
    over `k` of the entries `(p, k)`. -/
theorem reduceAdd_row {a b : ℕ} (h : (⟨2, ![a, b]⟩ : Shape).Reduces [1] ⟨1, ![a]⟩)
    (x : (⟨2, ![a, b]⟩ : Shape).Idx → EReal) (p : Fin a) :
    Ideal.reduceAdd h x (ix1 p) = ∑ k : Fin b, x (ix2 p k) :=
  (Ideal.reduceAdd_single h x (ix1 p)).trans
    (Finset.sum_congr rfl fun k _ => congrArg x (lift_row h p k))

end Cert.LibKeepdims

end
-- ==== Proof.BodyLemmas.lean ====
/-
  Row-level readings shared by the two quantizing bodies.

  Both bodies treat a block of 512 rows of 4096 entries the same way: the row is cut into sixteen chunks of 256
  entries, each chunk is multiplied by a 256 x 256 matrix, and the sixteen products are laid side by side; the
  range of the rotated row is read off and the row is quantized and dequantized entry by entry; the result is
  rotated back chunk by chunk with the second matrix. The lemmas below read each of these steps at an index:
  a chunk product as a sum over the 256 entries of the chunk, the side-by-side arrangement as "entry f sits in
  piece f / 256 at column f % 256", the row minimum and maximum as folds over the 4096 entries, and the
  entrywise arithmetic as the specification's row function.
-/
import proofs.«178549_j40664750358903_2_alg».proof.Proof.BodyStmt
import proofs.«178549_j40664750358903_2_alg».proof.Proof.LibDotSum
import proofs.«178549_j40664750358903_2_alg».proof.Proof.LibKeepdims
import Idealize.ShloMosaic.Lib.Pipeline.Value
import Idealize.ShloMosaic.Lib.ValueLayout
import Idealize.ShloMosaic.PureOps.Ideal.Laws

noncomputable section

namespace Cert.KBody

open Idealize.ShloMosaic Idealize.ShloMosaic.ValueIdx Cert.KernelIdeal Cert.Spec

/-- The zero offsets of a whole-block access, however they are spelt. -/
theorem zero_offsets : (![0, 0] : Fin 2 → Nat) = fun _ => 0 :=
  funext fun a => by match a with | ⟨0, _⟩ => rfl | ⟨1, _⟩ => rfl

/-! ## A chunk product read at an index -/

/-- The chunk product's left index at output (r, c) has row r. -/
theorem dotC_lhs0 (j : S512x256.Idx) (k : dot_S512x256_S256x256_S512x256_1_0_0_1_n_n.contr.Idx) :
    (dot_S512x256_S256x256_S512x256_1_0_0_1_n_n.lhsIdx j k 0).val = (j 0).val := by
  unfold DotDims.lhsIdx
  rw [dif_neg (show ¬(0 : Fin S512x256.rank) ∈ dot_S512x256_S256x256_S512x256_1_0_0_1_n_n.lhsBatch by decide),
    dif_pos (show (0 : Fin S512x256.rank) ∈ dot_S512x256_S256x256_S512x256_1_0_0_1_n_n.lhsNonContracting by decide)]
  rfl

/-- The chunk product's right index at output (r, c) has column c. -/
theorem dotC_rhs1 (j : S512x256.Idx) (k : dot_S512x256_S256x256_S512x256_1_0_0_1_n_n.contr.Idx) :
    (dot_S512x256_S256x256_S512x256_1_0_0_1_n_n.rhsIdx j k 1).val = (j 1).val := by
  unfold DotDims.rhsIdx
  rw [dif_neg (show ¬(1 : Fin S256x256.rank) ∈ dot_S512x256_S256x256_S512x256_1_0_0_1_n_n.rhsBatch by decide),
    dif_pos (show (1 : Fin S256x256.rank) ∈ dot_S512x256_S256x256_S512x256_1_0_0_1_n_n.rhsNonContracting by decide)]
  rfl

/-- The product of a [512, 256] block with a [256, 256] matrix into the zero splat, at (p, c): the sum over the
    256 shared coordinates. -/
theorem prod_apply (a : FVec Ideal S512x256 .f32) (M : FVec Ideal S256x256 .f32) (p : Fin 512) (c : Fin 256) :
    matmul dot_S512x256_S256x256_S512x256_1_0_0_1_n_n none a M (constant (F := Ideal) S512x256 .f32 0x00000000#32) (ix2 p c)
      = ∑ j : Fin 256, a (ix2 p j) * M (ix2 j c) := by
  refine (Ideal.matmul_constant_zero_apply (φ₁ := .f32) (φ₂ := .f32)
    dot_S512x256_S256x256_S512x256_1_0_0_1_n_n none a M (ix2 p c)).trans ?_
  exact Cert.LibDotSum.sum_contr_eq_sum_fin dot_S512x256_S256x256_S512x256_1_0_0_1_n_n rfl rfl
    dotC_lhs0
    (fun j k => dot_S512x256_S256x256_S512x256_1_0_0_1_n_n.lhsIdx_val_of_single rfl j k)
    (fun j k => dot_S512x256_S256x256_S512x256_1_0_0_1_n_n.rhsIdx_val_of_single rfl j k)
    dotC_rhs1 a M (ix2 p c)

/-- Chunk `q` of the rows `z` against the matrix `M`: what piece `q` of a rotated block holds. -/
def ChunkIs (z : Fin 512 → Row) (M : Mat 256) (q : Fin 16) (y : FVec Ideal S512x256 .f32) : Prop :=
  ∀ (p : Fin 512) (c : Fin 256),
    y (ix2 p c) = ∑ j : Fin 256, z p ⟨256 * q.val + j.val, by have := q.isLt; have := j.isLt; omega⟩ * M j c

/-- The columns from `off = 256 q` on of a block whose rows are `z`, times a matrix whose entries are `M`, is
    chunk `q`. -/
theorem chunk_is (D : FVec Ideal S512x4096 .f32) (z : Fin 512 → Row) (hD : ∀ p g, D (ix2 p g) = z p g)
    (Nv : FVec Ideal S256x256 .f32) (N : Mat 256) (hN : ∀ j c, Nv (ix2 j c) = N j c)
    (q : Fin 16) (off : ℕ) (hoff : off = 256 * q.val) (hs : S512x4096.Slices ![0, off] S512x256) :
    ChunkIs z N q (matmul dot_S512x256_S256x256_S512x256_1_0_0_1_n_n none
      (extractStridedSlice S512x256 ![0, off] D hs) Nv (constant (F := Ideal) S512x256 .f32 0x00000000#32)) := by
  intro p c
  subst hoff
  refine (prod_apply _ Nv p c).trans ?_
  refine Finset.sum_congr rfl fun j _ => ?_
  rw [hN]
  refine congrArg (· * N j c) ?_
  exact (slice2_axis1_apply (256 * q.val) D hs p j ⟨256 * q.val + j.val, by have := q.isLt; have := j.isLt; omega⟩ rfl).trans
    (hD p _)

/-- The same with the slice already taken. -/
theorem chunk_is' (D : FVec Ideal S512x4096 .f32) (z : Fin 512 → Row) (hD : ∀ p g, D (ix2 p g) = z p g)
    (Nv : FVec Ideal S256x256 .f32) (N : Mat 256) (hN : ∀ j c, Nv (ix2 j c) = N j c)
    (q : Fin 16) (off : ℕ) (hoff : off = 256 * q.val) (hs : S512x4096.Slices ![0, off] S512x256)
    (a : FVec Ideal S512x256 .f32) (ha : a = extractStridedSlice S512x256 ![0, off] D hs) :
    ChunkIs z N q (matmul dot_S512x256_S256x256_S512x256_1_0_0_1_n_n none a Nv
      (constant (F := Ideal) S512x256 .f32 0x00000000#32)) := by
  subst ha; exact chunk_is D z hD Nv N hN q off hoff hs

/-! ## Sixteen pieces side by side -/

/-- Sixteen [512, 256] pieces laid side by side, read at (p, f): piece f / 256 at (p, f % 256). -/
theorem concat16_apply (y : Fin 16 → FVec Ideal S512x256 .f32)
    (h : Shape.Concatenates [S512x256, S512x256, S512x256, S512x256, S512x256, S512x256, S512x256, S512x256, S512x256, S512x256, S512x256, S512x256, S512x256, S512x256, S512x256, S512x256] S512x4096 1) (p : Fin 512) (f : Fin 4096) :
    concatenate S512x4096 1 [⟨S512x256, y 0⟩, ⟨S512x256, y 1⟩, ⟨S512x256, y 2⟩, ⟨S512x256, y 3⟩, ⟨S512x256, y 4⟩, ⟨S512x256, y 5⟩, ⟨S512x256, y 6⟩, ⟨S512x256, y 7⟩, ⟨S512x256, y 8⟩, ⟨S512x256, y 9⟩, ⟨S512x256, y 10⟩, ⟨S512x256, y 11⟩, ⟨S512x256, y 12⟩, ⟨S512x256, y 13⟩, ⟨S512x256, y 14⟩, ⟨S512x256, y 15⟩] h (ix2 p f)
      = y ⟨f.val / 256, by have := f.isLt; omega⟩ (ix2 p ⟨f.val % 256, Nat.mod_lt _ (by norm_num)⟩) :=
  concatenate_ofFn_apply (t := S512x4096) (s₁ := S512x256) (1 : Fin 2) y h rfl 256 rfl (ix2 p f)
    ⟨f.val / 256, by have := f.isLt; omega⟩ rfl (ix2 p ⟨f.val % 256, Nat.mod_lt _ (by norm_num)⟩) rfl
    (fun b hb => by
      match b with
      | ⟨0, _⟩ => rfl
      | ⟨1, _⟩ => exact absurd rfl hb)

/-- Sixteen pieces that are the sixteen chunks of the rows `z` against `M`, laid side by side, are the rows
    rotated block by block: entry `f` is the sum over the 256 entries of `f`'s block against column `f % 256`. -/
theorem concat16_rot (z : Fin 512 → Row) (M : Mat 256) (y0 y1 y2 y3 y4 y5 y6 y7 y8 y9 y10 y11 y12 y13 y14 y15 : FVec Ideal S512x256 .f32)
    (h0 : ChunkIs z M 0 y0)
    (h1 : ChunkIs z M 1 y1)
    (h2 : ChunkIs z M 2 y2)
    (h3 : ChunkIs z M 3 y3)
    (h4 : ChunkIs z M 4 y4)
    (h5 : ChunkIs z M 5 y5)
    (h6 : ChunkIs z M 6 y6)
    (h7 : ChunkIs z M 7 y7)
    (h8 : ChunkIs z M 8 y8)
    (h9 : ChunkIs z M 9 y9)
    (h10 : ChunkIs z M 10 y10)
    (h11 : ChunkIs z M 11 y11)
    (h12 : ChunkIs z M 12 y12)
    (h13 : ChunkIs z M 13 y13)
    (h14 : ChunkIs z M 14 y14)
    (h15 : ChunkIs z M 15 y15)
    (h : Shape.Concatenates [S512x256, S512x256, S512x256, S512x256, S512x256, S512x256, S512x256, S512x256, S512x256, S512x256, S512x256, S512x256, S512x256, S512x256, S512x256, S512x256] S512x4096 1) (p : Fin 512) (f : Fin 4096) :
    concatenate S512x4096 1 [⟨S512x256, y0⟩, ⟨S512x256, y1⟩, ⟨S512x256, y2⟩, ⟨S512x256, y3⟩, ⟨S512x256, y4⟩, ⟨S512x256, y5⟩, ⟨S512x256, y6⟩, ⟨S512x256, y7⟩, ⟨S512x256, y8⟩, ⟨S512x256, y9⟩, ⟨S512x256, y10⟩, ⟨S512x256, y11⟩, ⟨S512x256, y12⟩, ⟨S512x256, y13⟩, ⟨S512x256, y14⟩, ⟨S512x256, y15⟩] h (ix2 p f)
      = rot2 (z p) M f := by
  have hy : ∀ q : Fin 16, ChunkIs z M q ((![y0, y1, y2, y3, y4, y5, y6, y7, y8, y9, y10, y11, y12, y13, y14, y15] : Fin 16 → FVec Ideal S512x256 .f32) q) := fun q =>
    match q with
    | ⟨0, _⟩ => h0
    | ⟨1, _⟩ => h1
    | ⟨2, _⟩ => h2
    | ⟨3, _⟩ => h3
    | ⟨4, _⟩ => h4
    | ⟨5, _⟩ => h5
    | ⟨6, _⟩ => h6
    | ⟨7, _⟩ => h7
    | ⟨8, _⟩ => h8
    | ⟨9, _⟩ => h9
    | ⟨10, _⟩ => h10
    | ⟨11, _⟩ => h11
    | ⟨12, _⟩ => h12
    | ⟨13, _⟩ => h13
    | ⟨14, _⟩ => h14
    | ⟨15, _⟩ => h15
    | ⟨n + 16, hn⟩ => absurd hn (by omega)
  refine (concat16_apply (![y0, y1, y2, y3, y4, y5, y6, y7, y8, y9, y10, y11, y12, y13, y14, y15] : Fin 16 → FVec Ideal S512x256 .f32) h p f).trans ?_
  exact hy ⟨f.val / 256, by have := f.isLt; omega⟩ p ⟨f.val % 256, Nat.mod_lt _ (by norm_num)⟩

/-! ## The row's range -/

/-- The maximum over axis 1 from minus infinity, at row `p`, is the row's maximum. -/
theorem rowMax_apply (xr : FVec Ideal S512x4096 .f32) (hred : S512x4096.Reduces [1] S512) (hφ : FKind.Formats .f32)
    (hacc : (0xFF800000#32 : BitVec 32) = FKind.maximumf.neutral .f32 hφ) (p : Fin 512) :
    multiReduction .maximumf [1] S512 xr 0xFF800000#32 hred hφ hacc (ix1 p) = rowMax (fun g => xr (ix2 p g)) := by
  refine (Ideal.multiReduction_maximumf_single xr _ hred hφ hacc (ix1 p)).trans ?_
  exact congrArg (fun r : Fin 4096 → EReal => (Finset.univ : Finset (Fin 4096)).fold max cBot r)
    (funext fun k => congrArg xr (Cert.LibKeepdims.lift_row hred p k))

/-- The minimum over axis 1 from plus infinity, at row `p`, is the row's minimum. -/
theorem rowMin_apply (xr : FVec Ideal S512x4096 .f32) (hred : S512x4096.Reduces [1] S512) (hφ : FKind.Formats .f32)
    (hacc : (0x7F800000#32 : BitVec 32) = FKind.minimumf.neutral .f32 hφ) (p : Fin 512) :
    multiReduction .minimumf [1] S512 xr 0x7F800000#32 hred hφ hacc (ix1 p) = rowMin (fun g => xr (ix2 p g)) := by
  refine (multiReduction_minimumf_eq_fold xr _ hred hφ hacc (ix1 p)).trans ?_
  refine (hred.fold_filter_drop_single _ _ xr (ix1 p)).trans ?_
  exact congrArg (fun r : Fin 4096 → EReal => (Finset.univ : Finset (Fin 4096)).fold min cTop r)
    (funext fun k => congrArg xr (Cert.LibKeepdims.lift_row hred p k))

/-! ## The entrywise arithmetic -/

/-- The column of clamped row minima. -/
def loCol (xr : FVec Ideal S512x4096 .f32) (hred : S512x4096.Reduces [1] S512) (hsc : S512.ShapeCasts S512x1) :
    FVec Ideal S512x1 .f32 :=
  minimumf (shapeCast S512x1 (multiReduction .minimumf [1] S512 xr 0x7F800000#32 hred (.inl rfl) rfl) hsc)
    (broadcast S512x1 (Scalar.ofBits (F := Ideal) .f32 0x00000000#32))

/-- The column of clamped row maxima. -/
def hiCol (xr : FVec Ideal S512x4096 .f32) (hred : S512x4096.Reduces [1] S512) (hsc : S512.ShapeCasts S512x1) :
    FVec Ideal S512x1 .f32 :=
  maximumf (shapeCast S512x1 (multiReduction .maximumf [1] S512 xr 0xFF800000#32 hred (.inl rfl) rfl) hsc)
    (broadcast S512x1 (Scalar.ofBits (F := Ideal) .f32 0x00000000#32))

/-- The column of step sizes. -/
def stepCol (xr : FVec Ideal S512x4096 .f32) (hred : S512x4096.Reduces [1] S512) (hsc : S512.ShapeCasts S512x1) :
    FVec Ideal S512x1 .f32 :=
  maximumf (broadcast S512x1 (Scalar.ofBits (F := Ideal) .f32 0x3727C5AC#32))
    (divf (subf (hiCol xr hred hsc) (loCol xr hred hsc)) (broadcast S512x1 (Scalar.ofBits (F := Ideal) .f32 0x41700000#32)))

/-- The column of zero points. -/
def zpCol (xr : FVec Ideal S512x4096 .f32) (hred : S512x4096.Reduces [1] S512) (hsc : S512.ShapeCasts S512x1) :
    FVec Ideal S512x1 .f32 :=
  roundeven (divf (subf (broadcast S512x1 (Scalar.ofBits (F := Ideal) .f32 0x00000000#32)) (loCol xr hred hsc))
    (stepCol xr hred hsc))

/-- The block quantized and dequantized, as the bodies compute it from the rotated block. -/
def quantOps (xr : FVec Ideal S512x4096 .f32) (hred : S512x4096.Reduces [1] S512) (hsc : S512.ShapeCasts S512x1)
    (hbc : S512x1.Broadcasts S512x4096) : FVec Ideal S512x4096 .f32 :=
  mulf (subf (minimumf (broadcast S512x4096 (Scalar.ofBits (F := Ideal) .f32 0x41700000#32))
      (maximumf (broadcast S512x4096 (Scalar.ofBits (F := Ideal) .f32 0x00000000#32))
        (addf (roundeven (divf xr (broadcastTo S512x4096 (stepCol xr hred hsc) hbc)))
          (broadcastTo S512x4096 (zpCol xr hred hsc) hbc))))
      (broadcastTo S512x4096 (zpCol xr hred hsc) hbc)) (broadcastTo S512x4096 (stepCol xr hred hsc) hbc)

/-- A splat of a float word over the column shape reads that word's value everywhere. -/
theorem splat1_apply (w : BitVec 32) (p : Fin 512) (u : Fin 1) :
    broadcast S512x1 (Scalar.ofBits (F := Ideal) .f32 w) (ix2 p u) = Ideal.ofBits .f32 w := rfl

/-- A splat of a float word over the block shape reads that word's value everywhere. -/
theorem splat2_apply (w : BitVec 32) (p : Fin 512) (f : Fin 4096) :
    broadcast S512x4096 (Scalar.ofBits (F := Ideal) .f32 w) (ix2 p f) = Ideal.ofBits .f32 w := rfl

/-- Rounding to even at an index rounds the element. -/
theorem roundeven_apply {s : Shape} (a : FVec Ideal s .f32) (i : s.Idx) :
    roundeven a i = Ideal.liftRound Ideal.roundHalfEven (a i) := rfl

theorem loCol_apply (xr : FVec Ideal S512x4096 .f32) (hred : S512x4096.Reduces [1] S512) (hsc : S512.ShapeCasts S512x1)
    (p : Fin 512) (u : Fin 1) : loCol xr hred hsc (ix2 p u) = lo (fun g => xr (ix2 p g)) := by
  unfold loCol lo
  refine (minimumf_apply _ _ _).trans ?_
  refine congrArg₂ min ?_ ((splat1_apply _ p u).trans Ideal.ofBits_zero_f32)
  refine (Cert.LibKeepdims.shapeCast_a_a1_apply _ hsc p u).trans ?_
  exact rowMin_apply xr hred _ _ p

theorem hiCol_apply (xr : FVec Ideal S512x4096 .f32) (hred : S512x4096.Reduces [1] S512) (hsc : S512.ShapeCasts S512x1)
    (p : Fin 512) (u : Fin 1) : hiCol xr hred hsc (ix2 p u) = hi (fun g => xr (ix2 p g)) := by
  unfold hiCol hi
  refine (maximumf_apply _ _ _).trans ?_
  refine congrArg₂ max ?_ ((splat1_apply _ p u).trans Ideal.ofBits_zero_f32)
  refine (Cert.LibKeepdims.shapeCast_a_a1_apply _ hsc p u).trans ?_
  exact rowMax_apply xr hred _ _ p

theorem stepCol_apply (xr : FVec Ideal S512x4096 .f32) (hred : S512x4096.Reduces [1] S512) (hsc : S512.ShapeCasts S512x1)
    (p : Fin 512) (u : Fin 1) : stepCol xr hred hsc (ix2 p u) = step (fun g => xr (ix2 p g)) := by
  unfold stepCol step
  refine (maximumf_apply _ _ _).trans ?_
  refine congrArg₂ max (splat1_apply _ p u) ?_
  refine (divf_apply _ _ _).trans ?_
  refine congrArg₂ Ideal.div ?_ (splat1_apply _ p u)
  refine (subf_apply _ _ _).trans ?_
  exact congrArg₂ (fun a b : EReal => a - b) (hiCol_apply xr hred hsc p u) (loCol_apply xr hred hsc p u)

theorem zpCol_apply (xr : FVec Ideal S512x4096 .f32) (hred : S512x4096.Reduces [1] S512) (hsc : S512.ShapeCasts S512x1)
    (p : Fin 512) (u : Fin 1) : zpCol xr hred hsc (ix2 p u) = zpK (fun g => xr (ix2 p g)) := by
  unfold zpCol zpK
  refine (roundeven_apply _ _).trans ?_
  refine congrArg (Ideal.liftRound Ideal.roundHalfEven) ?_
  refine (divf_apply _ _ _).trans ?_
  refine congrArg₂ Ideal.div ?_ (stepCol_apply xr hred hsc p u)
  refine (subf_apply _ _ _).trans ?_
  exact congrArg₂ (fun a b : EReal => a - b) ((splat1_apply _ p u).trans Ideal.ofBits_zero_f32)
    (loCol_apply xr hred hsc p u)

/-- The quantized and dequantized block at (p, f) is the specification's row function of row `p` at `f`. -/
theorem quantOps_apply (xr : FVec Ideal S512x4096 .f32) (hred : S512x4096.Reduces [1] S512) (hsc : S512.ShapeCasts S512x1)
    (hbc : S512x1.Broadcasts S512x4096) (p : Fin 512) (f : Fin 4096) :
    quantOps xr hred hsc hbc (ix2 p f) = dqK (fun g => xr (ix2 p g)) f := by
  unfold quantOps dqK
  have es := (Cert.LibKeepdims.broadcastTo_a1_ab_apply (stepCol xr hred hsc) hbc p f).trans
    (stepCol_apply xr hred hsc p 0)
  have ez := (Cert.LibKeepdims.broadcastTo_a1_ab_apply (zpCol xr hred hsc) hbc p f).trans
    (zpCol_apply xr hred hsc p 0)
  refine (mulf_apply _ _ _).trans ?_
  refine congrArg₂ (fun a b : EReal => a * b) ?_ es
  refine (subf_apply _ _ _).trans ?_
  refine congrArg₂ (fun a b : EReal => a - b) ?_ ez
  refine (minimumf_apply _ _ _).trans ?_
  refine congrArg₂ min (splat2_apply _ p f) ?_
  refine (maximumf_apply _ _ _).trans ?_
  refine congrArg₂ max ((splat2_apply _ p f).trans Ideal.ofBits_zero_f32) ?_
  refine (addf_apply _ _ _).trans ?_
  refine congrArg₂ (fun a b : EReal => a + b) ?_ ez
  refine (roundeven_apply _ _).trans ?_
  refine congrArg (Ideal.liftRound Ideal.roundHalfEven) ?_
  refine (divf_apply _ _ _).trans ?_
  exact congrArg (Ideal.div (xr (ix2 p f))) es

end Cert.KBody

end
-- ==== Proof.BodyQ0.lean ====
/-
  The first quantizing body, entry by entry.

  The body's block is built in three stages. The sixteen forward products of the input block's 256-wide column
  chunks with the first matrix, laid side by side, are the rows rotated block by block. The entrywise stage
  quantizes and dequantizes each rotated row against its own range. The sixteen backward products of that
  block's chunks with the second matrix, laid side by side, rotate the rows back; the final narrowing of the
  format changes no value. Entry (p, f) of the result is therefore the fake quantization of row p at f.
-/
import proofs.«178549_j40664750358903_2_alg».proof.Proof.BodyStmt
import proofs.«178549_j40664750358903_2_alg».proof.Proof.BodyLemmas

noncomputable section

namespace Cert.KBody

open Idealize.ShloMosaic Idealize.ShloMosaic.ValueIdx Cert.KernelIdeal Cert.Spec

namespace Q0

/-- A load's cast to its own shape changes nothing (the input block, the two matrices). -/
theorem pay2_eq (x0 : Vec Ideal S512x4096 .f32) : Gen.k0_pay2 x0 = x0 := shapeCast_self x0 _
theorem pay3_eq (x1 : Vec Ideal S256x256 .f32) : Gen.k0_pay3 x1 = x1 := shapeCast_self x1 _
theorem pay4_eq (x2 : Vec Ideal S256x256 .f32) : Gen.k0_pay4 x2 = x2 := shapeCast_self x2 _

/-- The entrywise stage is the shared quantize-dequantize function of the sixteen forward pieces side by side. -/
theorem pay21_eq (v3 : FVec Ideal S256x256 .f32) (v7 v9 v11 v13 v15 v17 v19 v21 v23 v25 v27 v29 v31 v33 v35 v36 cst : FVec Ideal S512x256 .f32) :
    Gen.k0_pay21 v3 v7 v9 v11 v13 v15 v17 v19 v21 v23 v25 v27 v29 v31 v33 v35 v36 cst
      = quantOps (concatenate S512x4096 1 [⟨S512x256, v7⟩, ⟨S512x256, v9⟩, ⟨S512x256, v11⟩, ⟨S512x256, v13⟩, ⟨S512x256, v15⟩, ⟨S512x256, v17⟩, ⟨S512x256, v19⟩, ⟨S512x256, v21⟩, ⟨S512x256, v23⟩, ⟨S512x256, v25⟩, ⟨S512x256, v27⟩, ⟨S512x256, v29⟩, ⟨S512x256, v31⟩, ⟨S512x256, v33⟩, ⟨S512x256, v35⟩,
          ⟨S512x256, matmul dot_S512x256_S256x256_S512x256_1_0_0_1_n_n none v36 v3 cst⟩]
          Gen.concatenates_S512x256_S512x256_S512x256_S512x256_S512x256_S512x256_S512x256_S512x256_S512x256_S512x256_S512x256_S512x256_S512x256_S512x256_S512x256_S512x256_S512x4096_d1)
        Gen.reduces_S512x4096_S512 Gen.shapeCasts_S512_S512x1 Gen.broadcasts_S512x1_S512x4096 := rfl

section
variable (x0 : Vec Ideal S512x4096 .f32) (x1 x2 : Vec Ideal S256x256 .f32)

/-- The rows of the input block, and the two matrices' entries. -/
abbrev rows : Fin 512 → Row := fun p g => x0 (ix2 p g)
abbrev matM : Mat 256 := fun j c => x1 (ix2 j c)
abbrev matN : Mat 256 := fun j c => x2 (ix2 j c)

/-- Forward piece `q`: the input block's columns from 256 q on, times the first matrix. -/
theorem fwd (q : Fin 16) (off : ℕ) (hoff : off = 256 * q.val) (hs : S512x4096.Slices ![0, off] S512x256) :
    ChunkIs (rows x0) (matM x1) q (matmul dot_S512x256_S256x256_S512x256_1_0_0_1_n_n none
      (extractStridedSlice S512x256 ![0, off] (Gen.k0_pay2 x0) hs) (Gen.k0_pay3 x1)
      (constant (F := Ideal) S512x256 .f32 0x00000000#32)) :=
  chunk_is (Gen.k0_pay2 x0) (rows x0) (fun p g => congrFun (pay2_eq x0) (ix2 p g)) (Gen.k0_pay3 x1) (matM x1)
    (fun j c => congrFun (pay3_eq x1) (ix2 j c)) q off hoff hs

/-- The quantized and dequantized block as the payloads spell it. -/
abbrev dq0 : FVec Ideal S512x4096 .f32 :=
  Gen.k0_pay21 (Gen.k0_pay3 x1) (Gen.k0_pay5 x0 x1) (Gen.k0_pay6 x0 x1) (Gen.k0_pay7 x0 x1) (Gen.k0_pay8 x0 x1) (Gen.k0_pay9 x0 x1) (Gen.k0_pay10 x0 x1) (Gen.k0_pay11 x0 x1) (Gen.k0_pay12 x0 x1) (Gen.k0_pay13 x0 x1) (Gen.k0_pay14 x0 x1) (Gen.k0_pay15 x0 x1) (Gen.k0_pay16 x0 x1) (Gen.k0_pay17 x0 x1) (Gen.k0_pay18 x0 x1) (Gen.k0_pay19 x0 x1) (Gen.k0_pay20 x0)
    (constant (F := Ideal) S512x256 .f32 0x00000000#32)

/-- Its entry (p, g): the quantize-dequantize function of the rotated row p, at g. -/
theorem dq0_apply (p : Fin 512) (g : Fin 4096) :
    dq0 x0 x1 (ix2 p g) = dqK (rot2 (rows x0 p) (matM x1)) g := by
  unfold dq0
  rw [pay21_eq]
  refine (quantOps_apply _ _ _ _ p g).trans ?_
  refine congrArg (fun r : Row => dqK r g) (funext fun g' => ?_)
  exact concat16_rot (rows x0) (matM x1) _ _ _ _ _ _ _ _ _ _ _ _ _ _ _ _
    (fwd x0 x1 0 0 rfl Gen.slices_S512x4096_o0_0_S512x256)
    (fwd x0 x1 1 256 rfl Gen.slices_S512x4096_o0_256_S512x256)
    (fwd x0 x1 2 512 rfl Gen.slices_S512x4096_o0_512_S512x256)
    (fwd x0 x1 3 768 rfl Gen.slices_S512x4096_o0_768_S512x256)
    (fwd x0 x1 4 1024 rfl Gen.slices_S512x4096_o0_1024_S512x256)
    (fwd x0 x1 5 1280 rfl Gen.slices_S512x4096_o0_1280_S512x256)
    (fwd x0 x1 6 1536 rfl Gen.slices_S512x4096_o0_1536_S512x256)
    (fwd x0 x1 7 1792 rfl Gen.slices_S512x4096_o0_1792_S512x256)
    (fwd x0 x1 8 2048 rfl Gen.slices_S512x4096_o0_2048_S512x256)
    (fwd x0 x1 9 2304 rfl Gen.slices_S512x4096_o0_2304_S512x256)
    (fwd x0 x1 10 2560 rfl Gen.slices_S512x4096_o0_2560_S512x256)
    (fwd x0 x1 11 2816 rfl Gen.slices_S512x4096_o0_2816_S512x256)
    (fwd x0 x1 12 3072 rfl Gen.slices_S512x4096_o0_3072_S512x256)
    (fwd x0 x1 13 3328 rfl Gen.slices_S512x4096_o0_3328_S512x256)
    (fwd x0 x1 14 3584 rfl Gen.slices_S512x4096_o0_3584_S512x256)
    (fwd x0 x1 15 3840 rfl Gen.slices_S512x4096_o0_3840_S512x256)
    _ p g'

/-- Backward piece `q`: the quantized block's columns from 256 q on, times the second matrix. -/
theorem bwd (q : Fin 16) (off : ℕ) (hoff : off = 256 * q.val) (hs : S512x4096.Slices ![0, off] S512x256) :
    ChunkIs (fun p => dqK (rot2 (rows x0 p) (matM x1))) (matN x2) q (matmul dot_S512x256_S256x256_S512x256_1_0_0_1_n_n none
      (extractStridedSlice S512x256 ![0, off] (dq0 x0 x1) hs) (Gen.k0_pay4 x2)
      (constant (F := Ideal) S512x256 .f32 0x00000000#32)) :=
  chunk_is (dq0 x0 x1) _ (dq0_apply x0 x1) (Gen.k0_pay4 x2) (matN x2)
    (fun j c => congrFun (pay4_eq x2) (ix2 j c)) q off hoff hs

end

end Q0

open Q0 in
theorem out0 : Out0 := by
  intro x0 x1 x2 p f
  unfold Gen.out0_3
  rw [View.canon_unit_zero zero_offsets]
  simp only [View.ld_unit_zero (S := S512x4096) zero_offsets, View.ld_unit_zero (S := S256x256) zero_offsets]
  unfold Gen.k0_pay1
  refine (truncf_apply (φ := .f32) (ψ := .bf16) _ Gen.bitsLt_bf16_f32 (ix2 p f)).trans ?_
  unfold fqK
  exact concat16_rot (fun p => dqK (rot2 (rows x0 p) (matM x1))) (matN x2) _ _ _ _ _ _ _ _ _ _ _ _ _ _ _ _
    (bwd x0 x1 x2 0 0 rfl Gen.slices_S512x4096_o0_0_S512x256)
    (bwd x0 x1 x2 1 256 rfl Gen.slices_S512x4096_o0_256_S512x256)
    (bwd x0 x1 x2 2 512 rfl Gen.slices_S512x4096_o0_512_S512x256)
    (bwd x0 x1 x2 3 768 rfl Gen.slices_S512x4096_o0_768_S512x256)
    (bwd x0 x1 x2 4 1024 rfl Gen.slices_S512x4096_o0_1024_S512x256)
    (bwd x0 x1 x2 5 1280 rfl Gen.slices_S512x4096_o0_1280_S512x256)
    (bwd x0 x1 x2 6 1536 rfl Gen.slices_S512x4096_o0_1536_S512x256)
    (bwd x0 x1 x2 7 1792 rfl Gen.slices_S512x4096_o0_1792_S512x256)
    (bwd x0 x1 x2 8 2048 rfl Gen.slices_S512x4096_o0_2048_S512x256)
    (bwd x0 x1 x2 9 2304 rfl Gen.slices_S512x4096_o0_2304_S512x256)
    (bwd x0 x1 x2 10 2560 rfl Gen.slices_S512x4096_o0_2560_S512x256)
    (bwd x0 x1 x2 11 2816 rfl Gen.slices_S512x4096_o0_2816_S512x256)
    (bwd x0 x1 x2 12 3072 rfl Gen.slices_S512x4096_o0_3072_S512x256)
    (bwd x0 x1 x2 13 3328 rfl Gen.slices_S512x4096_o0_3328_S512x256)
    (bwd x0 x1 x2 14 3584 rfl Gen.slices_S512x4096_o0_3584_S512x256)
    (bwd x0 x1 x2 15 3840 rfl Gen.slices_S512x4096_o0_3840_S512x256)
    _ p f

end Cert.KBody

end
-- ==== Proof.BodyQ1.lean ====
/-
  The second quantizing body, entry by entry.

  It treats its block exactly as the first one does — sixteen forward chunk products side by side, the entrywise
  quantize-dequantize stage, sixteen backward chunk products side by side — and then transposes the block before
  the final narrowing of the format, so entry (f, p) of what it leaves is the fake quantization of row p at f.
-/
import proofs.«178549_j40664750358903_2_alg».proof.Proof.BodyStmt
import proofs.«178549_j40664750358903_2_alg».proof.Proof.BodyLemmas

noncomputable section

namespace Cert.KBody

open Idealize.ShloMosaic Idealize.ShloMosaic.ValueIdx Cert.KernelIdeal Cert.Spec

namespace Q1

/-- A load's cast to its own shape changes nothing (the two matrices). -/
theorem pay2_eq (x1 : Vec Ideal S256x256 .f32) : Gen.k1_pay2 x1 = x1 := shapeCast_self x1 _
theorem pay3_eq (x2 : Vec Ideal S256x256 .f32) : Gen.k1_pay3 x2 = x2 := shapeCast_self x2 _

/-- The entrywise stage is the shared quantize-dequantize function of the sixteen forward pieces side by side. -/
theorem pay20_eq (v6 v8 v10 v12 v14 v16 v18 v20 v22 v24 v26 v28 v30 v32 v34 v36 : FVec Ideal S512x256 .f32) :
    Gen.k1_pay20 v6 v8 v10 v12 v14 v16 v18 v20 v22 v24 v26 v28 v30 v32 v34 v36
      = quantOps (concatenate S512x4096 1 [⟨S512x256, v6⟩, ⟨S512x256, v8⟩, ⟨S512x256, v10⟩, ⟨S512x256, v12⟩, ⟨S512x256, v14⟩, ⟨S512x256, v16⟩, ⟨S512x256, v18⟩, ⟨S512x256, v20⟩, ⟨S512x256, v22⟩, ⟨S512x256, v24⟩, ⟨S512x256, v26⟩, ⟨S512x256, v28⟩, ⟨S512x256, v30⟩, ⟨S512x256, v32⟩, ⟨S512x256, v34⟩, ⟨S512x256, v36⟩]
          Gen.concatenates_S512x256_S512x256_S512x256_S512x256_S512x256_S512x256_S512x256_S512x256_S512x256_S512x256_S512x256_S512x256_S512x256_S512x256_S512x256_S512x256_S512x4096_d1)
        Gen.reduces_S512x4096_S512 Gen.shapeCasts_S512_S512x1 Gen.broadcasts_S512x1_S512x4096 := rfl

section
variable (x0 : Vec Ideal S512x4096 .f32) (x1 x2 : Vec Ideal S256x256 .f32)

/-- The rows of the input block, and the two matrices' entries. -/
abbrev rows : Fin 512 → Row := fun p g => x0 (ix2 p g)
abbrev matM : Mat 256 := fun j c => x1 (ix2 j c)
abbrev matN : Mat 256 := fun j c => x2 (ix2 j c)

/-- Forward piece `q`: the input block's columns from 256 q on, times the first matrix. -/
theorem fwd (q : Fin 16) (off : ℕ) (hoff : off = 256 * q.val) (hs : S512x4096.Slices ![0, off] S512x256) :
    ChunkIs (rows x0) (matM x1) q (matmul (φ₁ := .f32) dot_S512x256_S256x256_S512x256_1_0_0_1_n_n none
      (extractStridedSlice (α := Ideal .f32) S512x256 ![0, off] x0 hs) (Gen.k1_pay2 x1)
      (constant (F := Ideal) S512x256 .f32 0x00000000#32)) :=
  chunk_is x0 (rows x0) (fun _ _ => rfl) (Gen.k1_pay2 x1) (matM x1)
    (fun j c => congrFun (pay2_eq x1) (ix2 j c)) q off hoff hs

/-- The quantized and dequantized block as the payloads spell it. -/
abbrev dq1 : FVec Ideal S512x4096 .f32 :=
  Gen.k1_pay20 (Gen.k1_pay4 x0 x1) (Gen.k1_pay5 x0 x1) (Gen.k1_pay6 x0 x1) (Gen.k1_pay7 x0 x1) (Gen.k1_pay8 x0 x1) (Gen.k1_pay9 x0 x1) (Gen.k1_pay10 x0 x1) (Gen.k1_pay11 x0 x1) (Gen.k1_pay12 x0 x1) (Gen.k1_pay13 x0 x1) (Gen.k1_pay14 x0 x1) (Gen.k1_pay15 x0 x1) (Gen.k1_pay16 x0 x1) (Gen.k1_pay17 x0 x1) (Gen.k1_pay18 x0 x1) (Gen.k1_pay19 x0 x1)

/-- Its entry (p, g): the quantize-dequantize function of the rotated row p, at g. -/
theorem dq1_apply (p : Fin 512) (g : Fin 4096) :
    dq1 x0 x1 (ix2 p g) = dqK (rot2 (rows x0 p) (matM x1)) g := by
  unfold dq1
  rw [pay20_eq]
  refine (quantOps_apply _ _ _ _ p g).trans ?_
  refine congrArg (fun r : Row => dqK r g) (funext fun g' => ?_)
  exact concat16_rot (rows x0) (matM x1) _ _ _ _ _ _ _ _ _ _ _ _ _ _ _ _
    (fwd x0 x1 0 0 rfl Gen.slices_S512x4096_o0_0_S512x256)
    (fwd x0 x1 1 256 rfl Gen.slices_S512x4096_o0_256_S512x256)
    (fwd x0 x1 2 512 rfl Gen.slices_S512x4096_o0_512_S512x256)
    (fwd x0 x1 3 768 rfl Gen.slices_S512x4096_o0_768_S512x256)
    (fwd x0 x1 4 1024 rfl Gen.slices_S512x4096_o0_1024_S512x256)
    (fwd x0 x1 5 1280 rfl Gen.slices_S512x4096_o0_1280_S512x256)
    (fwd x0 x1 6 1536 rfl Gen.slices_S512x4096_o0_1536_S512x256)
    (fwd x0 x1 7 1792 rfl Gen.slices_S512x4096_o0_1792_S512x256)
    (fwd x0 x1 8 2048 rfl Gen.slices_S512x4096_o0_2048_S512x256)
    (fwd x0 x1 9 2304 rfl Gen.slices_S512x4096_o0_2304_S512x256)
    (fwd x0 x1 10 2560 rfl Gen.slices_S512x4096_o0_2560_S512x256)
    (fwd x0 x1 11 2816 rfl Gen.slices_S512x4096_o0_2816_S512x256)
    (fwd x0 x1 12 3072 rfl Gen.slices_S512x4096_o0_3072_S512x256)
    (fwd x0 x1 13 3328 rfl Gen.slices_S512x4096_o0_3328_S512x256)
    (fwd x0 x1 14 3584 rfl Gen.slices_S512x4096_o0_3584_S512x256)
    (fwd x0 x1 15 3840 rfl Gen.slices_S512x4096_o0_3840_S512x256)
    _ p g'

/-- Backward piece `q`: the quantized block's columns from 256 q on, times the second matrix. -/
theorem bwd (q : Fin 16) (off : ℕ) (hoff : off = 256 * q.val) (hs : S512x4096.Slices ![0, off] S512x256) :
    ChunkIs (fun p => dqK (rot2 (rows x0 p) (matM x1))) (matN x2) q (matmul dot_S512x256_S256x256_S512x256_1_0_0_1_n_n none
      (extractStridedSlice S512x256 ![0, off] (dq1 x0 x1) hs) (Gen.k1_pay3 x2)
      (constant (F := Ideal) S512x256 .f32 0x00000000#32)) :=
  chunk_is (dq1 x0 x1) _ (dq1_apply x0 x1) (Gen.k1_pay3 x2) (matN x2)
    (fun j c => congrFun (pay3_eq x2) (ix2 j c)) q off hoff hs

end

end Q1

open Q1 in
theorem out1 : Out1 := by
  intro x0 x1 x2 f p
  unfold Gen.out1_3
  rw [View.canon_unit_zero zero_offsets]
  simp only [View.ld_unit_zero (S := S512x4096) zero_offsets, View.ld_unit_zero (S := S256x256) zero_offsets]
  unfold Gen.k1_pay1
  refine (truncf_apply (φ := .f32) (ψ := .bf16) _ Gen.bitsLt_bf16_f32 (ix2 f p)).trans ?_
  refine (transpose_ix2_apply _ _ f p).trans ?_
  unfold fqK
  exact concat16_rot (fun p => dqK (rot2 (rows x0 p) (matM x1))) (matN x2) _ _ _ _ _ _ _ _ _ _ _ _ _ _ _ _
    (bwd x0 x1 x2 0 0 rfl Gen.slices_S512x4096_o0_0_S512x256)
    (bwd x0 x1 x2 1 256 rfl Gen.slices_S512x4096_o0_256_S512x256)
    (bwd x0 x1 x2 2 512 rfl Gen.slices_S512x4096_o0_512_S512x256)
    (bwd x0 x1 x2 3 768 rfl Gen.slices_S512x4096_o0_768_S512x256)
    (bwd x0 x1 x2 4 1024 rfl Gen.slices_S512x4096_o0_1024_S512x256)
    (bwd x0 x1 x2 5 1280 rfl Gen.slices_S512x4096_o0_1280_S512x256)
    (bwd x0 x1 x2 6 1536 rfl Gen.slices_S512x4096_o0_1536_S512x256)
    (bwd x0 x1 x2 7 1792 rfl Gen.slices_S512x4096_o0_1792_S512x256)
    (bwd x0 x1 x2 8 2048 rfl Gen.slices_S512x4096_o0_2048_S512x256)
    (bwd x0 x1 x2 9 2304 rfl Gen.slices_S512x4096_o0_2304_S512x256)
    (bwd x0 x1 x2 10 2560 rfl Gen.slices_S512x4096_o0_2560_S512x256)
    (bwd x0 x1 x2 11 2816 rfl Gen.slices_S512x4096_o0_2816_S512x256)
    (bwd x0 x1 x2 12 3072 rfl Gen.slices_S512x4096_o0_3072_S512x256)
    (bwd x0 x1 x2 13 3328 rfl Gen.slices_S512x4096_o0_3328_S512x256)
    (bwd x0 x1 x2 14 3584 rfl Gen.slices_S512x4096_o0_3584_S512x256)
    (bwd x0 x1 x2 15 3840 rfl Gen.slices_S512x4096_o0_3840_S512x256)
    _ p f

end Cert.KBody

end
-- ==== Proof.BodyM.lean ====
/-
  The product body, entry by entry: the block it leaves is the matrix product of its left block with its right
  block plus the bias row. The accumulator the product starts from is the zero splat, so the entry at (p, o) is the
  plain contraction sum over the 4096 shared coordinates; the bias row [1, 4096] is repeated over the 256 rows.
-/
import proofs.«178549_j40664750358903_2_alg».proof.Proof.BodyStmt
import proofs.«178549_j40664750358903_2_alg».proof.Proof.LibDotSum
import Idealize.ShloMosaic.Lib.Pipeline.Value
import Idealize.ShloMosaic.Lib.ValueLayout
import Idealize.ShloMosaic.PureOps.Ideal.Laws

noncomputable section

namespace Cert.KBody

open Idealize.ShloMosaic Idealize.ShloMosaic.ValueIdx Cert.KernelIdeal Cert.Spec

/-- The zero offsets of a whole-block access, however they are spelt. -/
theorem zero_offsets2 : (![0, 0] : Fin 2 → Nat) = fun _ => 0 :=
  funext fun a => by match a with | ⟨0, _⟩ => rfl | ⟨1, _⟩ => rfl

/-- The product's left index at output (r, c) and contraction coordinate k has row r. -/
theorem dotM_lhs0 (j : S256x4096.Idx) (k : dot_S256x4096_S4096x4096_S256x4096_1_0_0_1_n_n.contr.Idx) :
    (dot_S256x4096_S4096x4096_S256x4096_1_0_0_1_n_n.lhsIdx j k 0).val = (j 0).val := by
  unfold DotDims.lhsIdx
  rw [dif_neg (show ¬(0 : Fin S256x4096.rank) ∈ dot_S256x4096_S4096x4096_S256x4096_1_0_0_1_n_n.lhsBatch by decide),
    dif_pos (show (0 : Fin S256x4096.rank) ∈ dot_S256x4096_S4096x4096_S256x4096_1_0_0_1_n_n.lhsNonContracting by decide)]
  rfl

/-- The product's right index at output (r, c) and contraction coordinate k has column c. -/
theorem dotM_rhs1 (j : S256x4096.Idx) (k : dot_S256x4096_S4096x4096_S256x4096_1_0_0_1_n_n.contr.Idx) :
    (dot_S256x4096_S4096x4096_S256x4096_1_0_0_1_n_n.rhsIdx j k 1).val = (j 1).val := by
  unfold DotDims.rhsIdx
  rw [dif_neg (show ¬(1 : Fin S4096x4096.rank) ∈ dot_S256x4096_S4096x4096_S256x4096_1_0_0_1_n_n.rhsBatch by decide),
    dif_pos (show (1 : Fin S4096x4096.rank) ∈ dot_S256x4096_S4096x4096_S256x4096_1_0_0_1_n_n.rhsNonContracting by decide)]
  rfl

theorem out2 : Out2 := by
  intro x0 x1 x2 p o
  unfold Gen.out2_3
  rw [View.canon_unit_zero zero_offsets2]
  simp only [View.ld_unit_zero (S := S256x4096) zero_offsets2, View.ld_unit_zero (S := S4096x4096) zero_offsets2,
    View.ld_unit_zero (S := S1x4096) zero_offsets2]
  unfold Gen.k2_pay1
  rw [shapeCast_self, shapeCast_self, shapeCast_self]
  refine (addf_apply _ _ _).trans ?_
  refine congrArg₂ (· + ·) ?_ ?_
  · refine (Ideal.matmul_constant_zero_apply (φ₁ := .bf16) (φ₂ := .bf16)
      dot_S256x4096_S4096x4096_S256x4096_1_0_0_1_n_n none x0 x1 (ix2 p o)).trans ?_
    exact Cert.LibDotSum.sum_contr_eq_sum_fin dot_S256x4096_S4096x4096_S256x4096_1_0_0_1_n_n rfl rfl
      dotM_lhs0
      (fun j k => dot_S256x4096_S4096x4096_S256x4096_1_0_0_1_n_n.lhsIdx_val_of_single rfl j k)
      (fun j k => dot_S256x4096_S4096x4096_S256x4096_1_0_0_1_n_n.rhsIdx_val_of_single rfl j k)
      dotM_rhs1 x0 x1 (ix2 p o)
  · exact broadcastTo_1b_ab_apply _ _ p o

end Cert.KBody

end
-- ==== Proof.RegionStmt.lean ====
/-
  What each of the three launches leaves in its output array, as one function of the arrays it reads: the launch
  of the first quantizing body leaves the fake quantization of every row of its input array; the second leaves the
  same of the weights, transposed; the third leaves the product of its two input arrays plus the bias row.
  Stated for any contents `V` of the buffers at the launch's entry.
-/
import proofs.«178549_j40664750358903_2_alg».proof.Proof.Gen.KernelIdeal.Frame
import proofs.«178549_j40664750358903_2_alg».proof.Proof.Spec

noncomputable section

namespace Cert.KRegion

open Idealize.ShloMosaic Idealize.ShloMosaic.TcCoe Idealize.ShloMosaic.ValueIdx Idealize.SL.Sem Cert.KernelIdeal Cert.Spec

/-- An array of extended reals read at an index (fixes the element type where a buffer's type hides it). -/
abbrev rd {s : Shape} (x : s.Idx → EReal) (i : s.Idx) : EReal := x i

/-- The first launch: its output array `[8192, 4096]` at `(p, f)` is the fake quantization of row `p` of its first
    input array with its two matrices. -/
def Final0 : Prop :=
  ∀ (V : (c : Dev nD) → (b : Ref sig .tc) → Buf (Elt Ideal) ((c : Thread nD τ).loc b)) (c : Dev nD),
    (Gen.dat0 (F := Ideal) V c).arrAt 3 cfg0.N
      = fun i : S8192x4096.Idx =>
          fqK (fun g => V c main_v9 (ix2 (i 0) g)) (fun j k => V c main_v4 (ix2 j k)) (fun j k => V c main_v8 (ix2 j k)) (i 1)

/-- The second launch: its output array `[4096, 4096]` at `(f, o)` is the fake quantization of row `o` of the weights
    at feature `f`. -/
def Final1 : Prop :=
  ∀ (V : (c : Dev nD) → (b : Ref sig .tc) → Buf (Elt Ideal) ((c : Thread nD τ).loc b)) (c : Dev nD),
    (Gen.dat1 (F := Ideal) V c).arrAt 3 cfg1.N
      = fun i : S4096x4096.Idx =>
          fqK (fun g => V c main_arg1 (ix2 (i 1) g)) (fun j k => V c main_v4 (ix2 j k)) (fun j k => V c main_v8 (ix2 j k)) (i 0)

/-- The third launch: its output array `[8192, 4096]` at `(p, o)` is the product of row `p` of its first input with
    column `o` of its second, plus the bias row at `o`. -/
def Final2 : Prop :=
  ∀ (V : (c : Dev nD) → (b : Ref sig .tc) → Buf (Elt Ideal) ((c : Thread nD τ).loc b)) (c : Dev nD),
    (Gen.dat2 (F := Ideal) V c).arrAt 3 cfg2.N
      = fun i : S8192x4096.Idx =>
          (∑ k : Fin 4096, rd (s := S8192x4096) (V c main_v10) (ix2 (i 0) k) * rd (s := S4096x4096) (V c main_v11) (ix2 k (i 1)))
            + rd (s := S1x4096) (V c main_v12) (ix2 (0 : Fin 1) (i 1))

end Cert.KRegion

end
-- ==== Proof.Region0.lean ====
/-
  The first quantizing launch, from one grid point to the whole array.

  The grid has 16 points; point `t` reads rows `512 t … 512 t + 511` of the activations `[8192, 4096]` and the two
  whole `256 x 256` matrices, and writes rows `512 t … 512 t + 511` of the result. Given that the body leaves, at
  `(p, f)` of its output block, the fake quantization of row `p` of its input block at feature `f`, every point writes
  back its row block of ONE array (row `r` of which is the fake quantization of row `r` of the activations), and the
  16 row blocks cover the result: row `r` belongs to point `r / 512`.
-/
import proofs.«178549_j40664750358903_2_alg».proof.Proof.BodyStmt
import proofs.«178549_j40664750358903_2_alg».proof.Proof.RegionStmt
import Idealize.ShloMosaic.Lib.Pipeline.Value

noncomputable section

namespace Cert.KRegion

open Idealize.ShloMosaic Idealize.ShloMosaic.TcCoe Idealize.ShloMosaic.ValueIdx Idealize.SL.Sem Cert.KernelIdeal Cert.Spec
open Idealize.ShloMosaic.Pipeline (Dat)

/-- The block indices of the four windows at point `t`: the activations and the result move down one row block per
    point, the two matrices stay at block `(0, 0)`. Decided over the 16 points. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b)) (c : Dev nD)

/-- Row block `t` of the activations: entry `(p, g)` of the block is entry `(512 t + p, g)` of the array. -/
theorem blk0_0 (t : Fin cfg0.N) (p : Fin 512) (g : Fin 4096) (h : 512 * t.val + p.val < 8192) :
    Gen.iblk0 (F := Ideal) V c 0 t (ix2 p g) = rd (s := S8192x4096) (V c main_v9) (ix2 ⟨512 * t.val + p.val, h⟩ g) := by
  unfold Gen.iblk0
  rw [View.read_apply]
  show rd (s := S8192x4096) (V c main_v9) (((cfg0.win 0).blk t).view.emb (ix2 p g)) = _
  congr 1
  funext a
  apply Fin.ext
  obtain ⟨e0, e1, -⟩ := idx0 t
  match a with
  | ⟨0, _⟩ => show win0_0.index t (0 : Fin 2) * 512 + 1 * p.val = 512 * t.val + p.val; rw [e0]; omega
  | ⟨1, _⟩ => show win0_0.index t (1 : Fin 2) * 4096 + 1 * g.val = g.val; rw [e1]; omega

/-- The first matrix is read whole at every point. -/
theorem blk0_1 (t : Fin cfg0.N) (j k : Fin 256) :
    Gen.iblk0 (F := Ideal) V c 1 t (ix2 j k) = rd (s := S256x256) (V c main_v4) (ix2 j k) := by
  unfold Gen.iblk0
  rw [View.read_apply]
  show rd (s := S256x256) (V c main_v4) (((cfg0.win 1).blk t).view.emb (ix2 j k)) = _
  congr 1
  funext a
  apply Fin.ext
  obtain ⟨-, -, e0, e1, -⟩ := idx0 t
  match a with
  | ⟨0, _⟩ => show win0_1.index t (0 : Fin 2) * 256 + 1 * j.val = j.val; rw [e0]; omega
  | ⟨1, _⟩ => show win0_1.index t (1 : Fin 2) * 256 + 1 * k.val = k.val; rw [e1]; omega

/-- The second matrix is read whole at every point. -/
theorem blk0_2 (t : Fin cfg0.N) (j k : Fin 256) :
    Gen.iblk0 (F := Ideal) V c 2 t (ix2 j k) = rd (s := S256x256) (V c main_v8) (ix2 j k) := by
  unfold Gen.iblk0
  rw [View.read_apply]
  show rd (s := S256x256) (V c main_v8) (((cfg0.win 2).blk t).view.emb (ix2 j k)) = _
  congr 1
  funext a
  apply Fin.ext
  obtain ⟨-, -, -, -, e0, e1, -⟩ := idx0 t
  match a with
  | ⟨0, _⟩ => show win0_2.index t (0 : Fin 2) * 256 + 1 * j.val = j.val; rw [e0]; omega
  | ⟨1, _⟩ => show win0_2.index t (1 : Fin 2) * 256 + 1 * k.val = k.val; rw [e1]; omega

/-- The array whose row `r` is the fake quantization of row `r` of the activations with the two matrices. -/
def quant0 : S8192x4096.Idx → EReal := fun i =>
  fqK (fun g => rd (s := S8192x4096) (V c main_v9) (ix2 (i 0) g)) (fun j k => rd (s := S256x256) (V c main_v4) (ix2 j k))
    (fun j k => rd (s := S256x256) (V c main_v8) (ix2 j k)) (i 1)

/-- Entry `(p, f)` of the output block of point `t` sits at `(512 t + p, f)` in the array. -/
theorem emb0_3 (t : Fin cfg0.N) (p : Fin 512) (f : Fin 4096) (h : 512 * t.val + p.val < 8192) :
    (((cfg0.win 3).blk t).view.emb (ix2 p f) : S8192x4096.Idx) = ix2 ⟨512 * t.val + p.val, h⟩ f := by
  funext a
  apply Fin.ext
  obtain ⟨-, -, -, -, -, -, e0, e1⟩ := idx0 t
  match a with
  | ⟨0, _⟩ => show win0_3.index t (0 : Fin 2) * 512 + 1 * p.val = 512 * t.val + p.val; rw [e0]; omega
  | ⟨1, _⟩ => show win0_3.index t (1 : Fin 2) * 4096 + 1 * f.val = f.val; rw [e1]; omega

/-- What point `t` writes back is row block `t` of the quantized array. -/
theorem flushed0 (h : Cert.KBody.Out0) (t : Fin cfg0.N) :
    (Gen.dat0 (F := Ideal) V c).flushed 3 t = ((cfg0.win 3).blk t).view.read (Elt Ideal) (quant0 V c) := by
  show (cfg0.win 3).cut (grid0.coords t) ((Gen.dat0 (F := Ideal) V c).after 3 t) = _
  rw [Gen.after0_3]
  funext y
  obtain ⟨p, f, rfl⟩ : ∃ (p : Fin 512) (f : Fin 4096), y = ix2 p f := ⟨y 0, y 1, eq_ix2 y⟩
  have hN : cfg0.N = 16 := Gen.N_0
  have hp : 512 * t.val + p.val < 8192 := by have := t.isLt; have := p.isLt; omega
  rw [View.read_apply]
  show Gen.out0_3 (F := Ideal) (Gen.iblk0 V c 0 t) (Gen.iblk0 V c 1 t) (Gen.iblk0 V c 2 t) (ix2 p f)
      = quant0 V c (((cfg0.win 3).blk t).view.emb (ix2 p f))
  refine (h (Gen.iblk0 V c 0 t) (Gen.iblk0 V c 1 t) (Gen.iblk0 V c 2 t) p f).trans ?_
  rw [emb0_3 t p f hp]
  show _ = fqK (fun g => rd (s := S8192x4096) (V c main_v9) (ix2 (⟨512 * t.val + p.val, hp⟩ : Fin 8192) g))
    (fun j k => rd (s := S256x256) (V c main_v4) (ix2 j k)) (fun j k => rd (s := S256x256) (V c main_v8) (ix2 j k)) f
  have e0 : ((fun g => Gen.iblk0 (F := Ideal) V c 0 t (ix2 p g)) : Row)
      = fun g => rd (s := S8192x4096) (V c main_v9) (ix2 (⟨512 * t.val + p.val, hp⟩ : Fin 8192) g) :=
    funext fun g => blk0_0 V c t p g hp
  have e1 : ((fun j k => Gen.iblk0 (F := Ideal) V c 1 t (ix2 j k)) : Mat 256)
      = fun j k => rd (s := S256x256) (V c main_v4) (ix2 j k) :=
    funext fun j => funext fun k => blk0_1 V c t j k
  have e2 : ((fun j k => Gen.iblk0 (F := Ideal) V c 2 t (ix2 j k)) : Mat 256)
      = fun j k => rd (s := S256x256) (V c main_v8) (ix2 j k) :=
    funext fun j => funext fun k => blk0_2 V c t j k
  exact (congrArg (fun x : Row => fqK x _ _ f) e0).trans
    ((congrArg (fun M : Mat 256 => fqK _ M _ f) e1).trans (congrArg (fun N : Mat 256 => fqK _ _ N f) e2))

/-- An index of the array is in point `t`'s output block iff each coordinate is in the block's range on its axis. -/
theorem mem_blk0 (t : Fin cfg0.N) (i : S8192x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v10).slice (win0_3.rect t)).set ↔ _
  rw [View.set_slice_whole, Rect.mem_set_unit]
  exact Iff.rfl

/-- Row `r` of the array lies in the output block of point `r / 512`. -/
theorem cover0 (i : S8192x4096.Idx) :
    ∃ t : Fin cfg0.N, (cfg0.win 3).flush t = true ∧ i ∈ ((cfg0.win 3).blk t).view.set := by
  have hN : cfg0.N = 16 := Gen.N_0
  have hi0 : (i 0).val < 8192 := (i 0).isLt
  have hi1 : (i 1).val < 4096 := (i 1).isLt
  have ht : (i 0).val / 512 < cfg0.N := by rw [hN]; omega
  refine ⟨⟨(i 0).val / 512, ht⟩, Gen.flush0_3 _, ?_⟩
  rw [mem_blk0]
  obtain ⟨-, -, -, -, -, -, e0, e1⟩ := idx0 ⟨(i 0).val / 512, ht⟩
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, ht⟩ (1 : Fin 2) * 4096 ≤ (i 1).val ∧ (i 1).val < win0_3.index ⟨(i 0).val / 512, ht⟩ (1 : Fin 2) * 4096 + 4096
    rw [e1]; omega

/-- The result array of the first quantizing launch: every row block is written once, by the point that owns it,
    with the fake quantization of the rows read there. -/
theorem final0 (h : Cert.KBody.Out0) : Final0 := fun V c =>
  (Gen.dat0 (F := Ideal) V c).arrAt_eq_of_cover 3 (quant0 V c) (fun t _ => flushed0 V c h t) cover0

end Cert.KRegion

end
-- ==== Proof.Region1.lean ====
/-
  The second quantizing launch, whose output is transposed, from one grid point to the whole array.

  The grid has 8 points; point `t` reads rows `512 t … 512 t + 511` of the weights `[4096, 4096]` and the two whole
  `256 x 256` matrices, and writes COLUMNS `512 t … 512 t + 511` of the result `[4096, 4096]`. Given that the body
  leaves, at `(f, p)` of its output block `[4096, 512]`, the fake quantization of row `p` of its input block at feature
  `f`, every point writes back its column block of ONE array (whose entry `(f, o)` is the fake quantization of row
  `o` of the weights at feature `f`), and the 8 column blocks cover the result: column `o` belongs to point `o / 512`.
-/
import proofs.«178549_j40664750358903_2_alg».proof.Proof.BodyStmt
import proofs.«178549_j40664750358903_2_alg».proof.Proof.RegionStmt
import Idealize.ShloMosaic.Lib.Pipeline.Value

noncomputable section

namespace Cert.KRegion

open Idealize.ShloMosaic Idealize.ShloMosaic.TcCoe Idealize.ShloMosaic.ValueIdx Idealize.SL.Sem Cert.KernelIdeal Cert.Spec
open Idealize.ShloMosaic.Pipeline (Dat)

/-- The block indices of the four windows at point `t`: the weights move down one row block per point, the result moves
    right one column block per point, the two matrices stay at block `(0, 0)`. Decided over the 8 points. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = t.val :=
  (by decide +kernel : ∀ t : Fin grid1.N, _)

variable (V : (c : Dev nD) → (b : Ref sig .tc) → Buf (Elt Ideal) ((c : Thread nD τ).loc b)) (c : Dev nD)

/-- Row block `t` of the weights: entry `(p, g)` of the block is entry `(512 t + p, g)` of the array. -/
theorem blk1_0 (t : Fin cfg1.N) (p : Fin 512) (g : Fin 4096) (h : 512 * t.val + p.val < 4096) :
    Gen.iblk1 (F := Ideal) V c 0 t (ix2 p g) = rd (s := S4096x4096) (V c main_arg1) (ix2 ⟨512 * t.val + p.val, h⟩ g) := by
  unfold Gen.iblk1
  rw [View.read_apply]
  show rd (s := S4096x4096) (V c main_arg1) (((cfg1.win 0).blk t).view.emb (ix2 p g)) = _
  congr 1
  funext a
  apply Fin.ext
  obtain ⟨e0, e1, -⟩ := idx1 t
  match a with
  | ⟨0, _⟩ => show win1_0.index t (0 : Fin 2) * 512 + 1 * p.val = 512 * t.val + p.val; rw [e0]; omega
  | ⟨1, _⟩ => show win1_0.index t (1 : Fin 2) * 4096 + 1 * g.val = g.val; rw [e1]; omega

/-- The first matrix is read whole at every point. -/
theorem blk1_1 (t : Fin cfg1.N) (j k : Fin 256) :
    Gen.iblk1 (F := Ideal) V c 1 t (ix2 j k) = rd (s := S256x256) (V c main_v4) (ix2 j k) := by
  unfold Gen.iblk1
  rw [View.read_apply]
  show rd (s := S256x256) (V c main_v4) (((cfg1.win 1).blk t).view.emb (ix2 j k)) = _
  congr 1
  funext a
  apply Fin.ext
  obtain ⟨-, -, e0, e1, -⟩ := idx1 t
  match a with
  | ⟨0, _⟩ => show win1_1.index t (0 : Fin 2) * 256 + 1 * j.val = j.val; rw [e0]; omega
  | ⟨1, _⟩ => show win1_1.index t (1 : Fin 2) * 256 + 1 * k.val = k.val; rw [e1]; omega

/-- The second matrix is read whole at every point. -/
theorem blk1_2 (t : Fin cfg1.N) (j k : Fin 256) :
    Gen.iblk1 (F := Ideal) V c 2 t (ix2 j k) = rd (s := S256x256) (V c main_v8) (ix2 j k) := by
  unfold Gen.iblk1
  rw [View.read_apply]
  show rd (s := S256x256) (V c main_v8) (((cfg1.win 2).blk t).view.emb (ix2 j k)) = _
  congr 1
  funext a
  apply Fin.ext
  obtain ⟨-, -, -, -, e0, e1, -⟩ := idx1 t
  match a with
  | ⟨0, _⟩ => show win1_2.index t (0 : Fin 2) * 256 + 1 * j.val = j.val; rw [e0]; omega
  | ⟨1, _⟩ => show win1_2.index t (1 : Fin 2) * 256 + 1 * k.val = k.val; rw [e1]; omega

/-- The array whose column `o` is the fake quantization of row `o` of the weights with the two matrices. -/
def quant1 : S4096x4096.Idx → EReal := fun i =>
  fqK (fun g => rd (s := S4096x4096) (V c main_arg1) (ix2 (i 1) g)) (fun j k => rd (s := S256x256) (V c main_v4) (ix2 j k))
    (fun j k => rd (s := S256x256) (V c main_v8) (ix2 j k)) (i 0)

/-- Entry `(f, p)` of the output block of point `t` sits at `(f, 512 t + p)` in the array. -/
theorem emb1_3 (t : Fin cfg1.N) (f : Fin 4096) (p : Fin 512) (h : 512 * t.val + p.val < 4096) :
    (((cfg1.win 3).blk t).view.emb (ix2 f p) : S4096x4096.Idx) = ix2 f ⟨512 * t.val + p.val, h⟩ := by
  funext a
  apply Fin.ext
  obtain ⟨-, -, -, -, -, -, e0, e1⟩ := idx1 t
  match a with
  | ⟨0, _⟩ => show win1_3.index t (0 : Fin 2) * 4096 + 1 * f.val = f.val; rw [e0]; omega
  | ⟨1, _⟩ => show win1_3.index t (1 : Fin 2) * 512 + 1 * p.val = 512 * t.val + p.val; rw [e1]; omega

/-- What point `t` writes back is column block `t` of the transposed quantized array. -/
theorem flushed1 (h : Cert.KBody.Out1) (t : Fin cfg1.N) :
    (Gen.dat1 (F := Ideal) V c).flushed 3 t = ((cfg1.win 3).blk t).view.read (Elt Ideal) (quant1 V c) := by
  show (cfg1.win 3).cut (grid1.coords t) ((Gen.dat1 (F := Ideal) V c).after 3 t) = _
  rw [Gen.after1_3]
  funext y
  obtain ⟨f, p, rfl⟩ : ∃ (f : Fin 4096) (p : Fin 512), y = ix2 f p := ⟨y 0, y 1, eq_ix2 y⟩
  have hN : cfg1.N = 8 := Gen.N_1
  have hp : 512 * t.val + p.val < 4096 := by have := t.isLt; have := p.isLt; omega
  rw [View.read_apply]
  show Gen.out1_3 (F := Ideal) (Gen.iblk1 V c 0 t) (Gen.iblk1 V c 1 t) (Gen.iblk1 V c 2 t) (ix2 f p)
      = quant1 V c (((cfg1.win 3).blk t).view.emb (ix2 f p))
  refine (h (Gen.iblk1 V c 0 t) (Gen.iblk1 V c 1 t) (Gen.iblk1 V c 2 t) f p).trans ?_
  rw [emb1_3 t f p hp]
  show _ = fqK (fun g => rd (s := S4096x4096) (V c main_arg1) (ix2 (⟨512 * t.val + p.val, hp⟩ : Fin 4096) g))
    (fun j k => rd (s := S256x256) (V c main_v4) (ix2 j k)) (fun j k => rd (s := S256x256) (V c main_v8) (ix2 j k)) f
  have e0 : ((fun g => Gen.iblk1 (F := Ideal) V c 0 t (ix2 p g)) : Row)
      = fun g => rd (s := S4096x4096) (V c main_arg1) (ix2 (⟨512 * t.val + p.val, hp⟩ : Fin 4096) g) :=
    funext fun g => blk1_0 V c t p g hp
  have e1 : ((fun j k => Gen.iblk1 (F := Ideal) V c 1 t (ix2 j k)) : Mat 256)
      = fun j k => rd (s := S256x256) (V c main_v4) (ix2 j k) :=
    funext fun j => funext fun k => blk1_1 V c t j k
  have e2 : ((fun j k => Gen.iblk1 (F := Ideal) V c 2 t (ix2 j k)) : Mat 256)
      = fun j k => rd (s := S256x256) (V c main_v8) (ix2 j k) :=
    funext fun j => funext fun k => blk1_2 V c t j k
  exact (congrArg (fun x : Row => fqK x _ _ f) e0).trans
    ((congrArg (fun M : Mat 256 => fqK _ M _ f) e1).trans (congrArg (fun N : Mat 256 => fqK _ _ N f) e2))

/-- An index of the array is in point `t`'s output block iff each coordinate is in the block's range on its axis. -/
theorem mem_blk1 (t : Fin cfg1.N) (i : S4096x4096.Idx) :
    i ∈ ((cfg1.win 3).blk t).view.set ↔ ∀ a : Fin 2, win1_3.index t a * S4096x512.size a ≤ (i a).val ∧ (i a).val < win1_3.index t a * S4096x512.size a + S4096x512.size a := by
  show i ∈ ((View.whole main_v11).slice (win1_3.rect t)).set ↔ _
  rw [View.set_slice_whole, Rect.mem_set_unit]
  exact Iff.rfl

/-- Column `o` of the array lies in the output block of point `o / 512`. -/
theorem cover1 (i : S4096x4096.Idx) :
    ∃ t : Fin cfg1.N, (cfg1.win 3).flush t = true ∧ i ∈ ((cfg1.win 3).blk t).view.set := by
  have hN : cfg1.N = 8 := Gen.N_1
  have hi0 : (i 0).val < 4096 := (i 0).isLt
  have hi1 : (i 1).val < 4096 := (i 1).isLt
  have ht : (i 1).val / 512 < cfg1.N := by rw [hN]; omega
  refine ⟨⟨(i 1).val / 512, ht⟩, Gen.flush1_3 _, ?_⟩
  rw [mem_blk1]
  obtain ⟨-, -, -, -, -, -, e0, e1⟩ := idx1 ⟨(i 1).val / 512, ht⟩
  intro a
  match a with
  | ⟨0, _⟩ =>
    show win1_3.index ⟨(i 1).val / 512, ht⟩ (0 : Fin 2) * 4096 ≤ (i 0).val ∧ (i 0).val < win1_3.index ⟨(i 1).val / 512, ht⟩ (0 : Fin 2) * 4096 + 4096
    rw [e0]; omega
  | ⟨1, _⟩ =>
    show win1_3.index ⟨(i 1).val / 512, ht⟩ (1 : Fin 2) * 512 ≤ (i 1).val ∧ (i 1).val < win1_3.index ⟨(i 1).val / 512, ht⟩ (1 : Fin 2) * 512 + 512
    rw [e1]; show (i 1).val / 512 * 512 ≤ (i 1).val ∧ (i 1).val < (i 1).val / 512 * 512 + 512; omega

/-- The result array of the second quantizing launch: every column block is written once, by the point that owns
    it, with the fake quantization of the rows read there, transposed. -/
theorem final1 (h : Cert.KBody.Out1) : Final1 := fun V c =>
  (Gen.dat1 (F := Ideal) V c).arrAt_eq_of_cover 3 (quant1 V c) (fun t _ => flushed1 V c h t) cover1

end Cert.KRegion

end
-- ==== Proof.Region2.lean ====
/-
  The product launch, from one grid point to the whole array.

  The grid has 32 points; point `t` reads rows `256 t … 256 t + 255` of the left factor `[8192, 4096]`, the whole
  right factor `[4096, 4096]` and the whole bias row `[1, 4096]`, and writes rows `256 t … 256 t + 255` of the
  result. Given that the body leaves, at `(p, o)` of its output block, the product of row `p` of its left block with
  column `o` of its right block plus the bias at `o`, every point writes back its row block of ONE array (the product
  of the two whole arrays plus the bias row), and the 32 row blocks cover the result: row `r` belongs to point
  `r / 256`. So the result array ends holding that product.
-/
import proofs.«178549_j40664750358903_2_alg».proof.Proof.BodyStmt
import proofs.«178549_j40664750358903_2_alg».proof.Proof.RegionStmt
import Idealize.ShloMosaic.Lib.Pipeline.Value

noncomputable section

namespace Cert.KRegion

open Idealize.ShloMosaic Idealize.ShloMosaic.TcCoe Idealize.ShloMosaic.ValueIdx Idealize.SL.Sem Cert.KernelIdeal Cert.Spec
open Idealize.ShloMosaic.Pipeline (Dat)

/-- The block indices of the four windows at point `t`: the left factor and the result move down one row block per
    point, the right factor and the bias stay at block `(0, 0)`. Decided over the 32 points. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b)) (c : Dev nD)

/-- Row block `t` of the left factor: entry `(p, k)` of the block is entry `(256 t + p, k)` of the array. -/
theorem blk2_0 (t : Fin cfg2.N) (p : Fin 256) (k : Fin 4096) (h : 256 * t.val + p.val < 8192) :
    Gen.iblk2 (F := Ideal) V c 0 t (ix2 p k) = rd (s := S8192x4096) (V c main_v10) (ix2 ⟨256 * t.val + p.val, h⟩ k) := by
  unfold Gen.iblk2
  rw [View.read_apply]
  show rd (s := S8192x4096) (V c main_v10) (((cfg2.win 0).blk t).view.emb (ix2 p k)) = _
  congr 1
  funext a
  apply Fin.ext
  obtain ⟨e0, e1, -⟩ := idx2 t
  match a with
  | ⟨0, _⟩ => show win2_0.index t (0 : Fin 2) * 256 + 1 * p.val = 256 * t.val + p.val; rw [e0]; omega
  | ⟨1, _⟩ => show win2_0.index t (1 : Fin 2) * 4096 + 1 * k.val = k.val; rw [e1]; omega

/-- The right factor is read whole at every point. -/
theorem blk2_1 (t : Fin cfg2.N) (k o : Fin 4096) :
    Gen.iblk2 (F := Ideal) V c 1 t (ix2 k o) = rd (s := S4096x4096) (V c main_v11) (ix2 k o) := by
  unfold Gen.iblk2
  rw [View.read_apply]
  show rd (s := S4096x4096) (V c main_v11) (((cfg2.win 1).blk t).view.emb (ix2 k o)) = _
  congr 1
  funext a
  apply Fin.ext
  obtain ⟨-, -, e0, e1, -⟩ := idx2 t
  match a with
  | ⟨0, _⟩ => show win2_1.index t (0 : Fin 2) * 4096 + 1 * k.val = k.val; rw [e0]; omega
  | ⟨1, _⟩ => show win2_1.index t (1 : Fin 2) * 4096 + 1 * o.val = o.val; rw [e1]; omega

/-- The bias row is read whole at every point. -/
theorem blk2_2 (t : Fin cfg2.N) (z : Fin 1) (o : Fin 4096) :
    Gen.iblk2 (F := Ideal) V c 2 t (ix2 z o) = rd (s := S1x4096) (V c main_v12) (ix2 z o) := by
  unfold Gen.iblk2
  rw [View.read_apply]
  show rd (s := S1x4096) (V c main_v12) (((cfg2.win 2).blk t).view.emb (ix2 z o)) = _
  congr 1
  funext a
  apply Fin.ext
  obtain ⟨-, -, -, -, e0, e1, -⟩ := idx2 t
  match a with
  | ⟨0, _⟩ => show win2_2.index t (0 : Fin 2) * 1 + 1 * z.val = z.val; rw [e0]; omega
  | ⟨1, _⟩ => show win2_2.index t (1 : Fin 2) * 4096 + 1 * o.val = o.val; rw [e1]; omega

/-- The product of the two factors plus the bias row, as one array. -/
def prod2 : S8192x4096.Idx → EReal := fun i =>
  (∑ k : Fin 4096, rd (s := S8192x4096) (V c main_v10) (ix2 (i 0) k) * rd (s := S4096x4096) (V c main_v11) (ix2 k (i 1)))
    + rd (s := S1x4096) (V c main_v12) (ix2 (0 : Fin 1) (i 1))

/-- Entry `(p, o)` of the output block of point `t` sits at `(256 t + p, o)` in the array. -/
theorem emb2_3 (t : Fin cfg2.N) (p : Fin 256) (o : Fin 4096) (h : 256 * t.val + p.val < 8192) :
    (((cfg2.win 3).blk t).view.emb (ix2 p o) : S8192x4096.Idx) = ix2 ⟨256 * t.val + p.val, h⟩ o := by
  funext a
  apply Fin.ext
  obtain ⟨-, -, -, -, -, -, e0, e1⟩ := idx2 t
  match a with
  | ⟨0, _⟩ => show win2_3.index t (0 : Fin 2) * 256 + 1 * p.val = 256 * t.val + p.val; rw [e0]; omega
  | ⟨1, _⟩ => show win2_3.index t (1 : Fin 2) * 4096 + 1 * o.val = o.val; rw [e1]; omega

/-- What point `t` writes back is row block `t` of the product array. -/
theorem flushed2 (h : Cert.KBody.Out2) (t : Fin cfg2.N) :
    (Gen.dat2 (F := Ideal) V c).flushed 3 t = ((cfg2.win 3).blk t).view.read (Elt Ideal) (prod2 V c) := by
  show (cfg2.win 3).cut (grid2.coords t) ((Gen.dat2 (F := Ideal) V c).after 3 t) = _
  rw [Gen.after2_3]
  funext y
  obtain ⟨p, o, rfl⟩ : ∃ (p : Fin 256) (o : Fin 4096), y = ix2 p o := ⟨y 0, y 1, eq_ix2 y⟩
  have hN : cfg2.N = 32 := Gen.N_2
  have hp : 256 * t.val + p.val < 8192 := by have := t.isLt; have := p.isLt; omega
  rw [View.read_apply]
  show Gen.out2_3 (F := Ideal) (Gen.iblk2 V c 0 t) (Gen.iblk2 V c 1 t) (Gen.iblk2 V c 2 t) (ix2 p o)
      = prod2 V c (((cfg2.win 3).blk t).view.emb (ix2 p o))
  refine (h (Gen.iblk2 V c 0 t) (Gen.iblk2 V c 1 t) (Gen.iblk2 V c 2 t) p o).trans ?_
  rw [emb2_3 t p o hp]
  show _ = (∑ k : Fin 4096, rd (s := S8192x4096) (V c main_v10) (ix2 (⟨256 * t.val + p.val, hp⟩ : Fin 8192) k) * rd (s := S4096x4096) (V c main_v11) (ix2 k o))
    + rd (s := S1x4096) (V c main_v12) (ix2 (0 : Fin 1) o)
  rw [blk2_2 V c t 0 o]
  refine congrArg (· + _) (Finset.sum_congr rfl fun k _ => ?_)
  rw [blk2_0 V c t p k hp, blk2_1 V c t k o]

/-- An index of the array is in point `t`'s output block iff each coordinate is in the block's range on its axis. -/
theorem mem_blk2 (t : Fin cfg2.N) (i : S8192x4096.Idx) :
    i ∈ ((cfg2.win 3).blk t).view.set ↔ ∀ a : Fin 2, win2_3.index t a * S256x4096.size a ≤ (i a).val ∧ (i a).val < win2_3.index t a * S256x4096.size a + S256x4096.size a := by
  show i ∈ ((View.whole main_v13).slice (win2_3.rect t)).set ↔ _
  rw [View.set_slice_whole, Rect.mem_set_unit]
  exact Iff.rfl

/-- Row `r` of the array lies in the output block of point `r / 256`. -/
theorem cover2 (i : S8192x4096.Idx) :
    ∃ t : Fin cfg2.N, (cfg2.win 3).flush t = true ∧ i ∈ ((cfg2.win 3).blk t).view.set := by
  have hN : cfg2.N = 32 := Gen.N_2
  have hi0 : (i 0).val < 8192 := (i 0).isLt
  have hi1 : (i 1).val < 4096 := (i 1).isLt
  have ht : (i 0).val / 256 < cfg2.N := by rw [hN]; omega
  refine ⟨⟨(i 0).val / 256, ht⟩, Gen.flush2_3 _, ?_⟩
  rw [mem_blk2]
  obtain ⟨-, -, -, -, -, -, e0, e1⟩ := idx2 ⟨(i 0).val / 256, ht⟩
  intro a
  match a with
  | ⟨0, _⟩ =>
    show win2_3.index ⟨(i 0).val / 256, ht⟩ (0 : Fin 2) * 256 ≤ (i 0).val ∧ (i 0).val < win2_3.index ⟨(i 0).val / 256, ht⟩ (0 : Fin 2) * 256 + 256
    rw [e0]; show (i 0).val / 256 * 256 ≤ (i 0).val ∧ (i 0).val < (i 0).val / 256 * 256 + 256; omega
  | ⟨1, _⟩ =>
    show win2_3.index ⟨(i 0).val / 256, ht⟩ (1 : Fin 2) * 4096 ≤ (i 1).val ∧ (i 1).val < win2_3.index ⟨(i 0).val / 256, ht⟩ (1 : Fin 2) * 4096 + 4096
    rw [e1]; omega

/-- The result array of the product launch: every row block is written once, by the point that owns it, with the
    product of the whole arrays read there. -/
theorem final2 (h : Cert.KBody.Out2) : Final2 := fun V c =>
  (Gen.dat2 (F := Ideal) V c).arrAt_eq_of_cover 3 (prod2 V c) (fun t _ => flushed2 V c h t) cover2

end Cert.KRegion

end
-- ==== Proof.KOps.lean ====
/-
  Host layout operations of the kernel's program read at an index: the 256 x 256 matrix glued from a 128 x 128
  matrix and a zero matrix (two side-by-side joins stacked) is the block-diagonal matrix; the activations
  flattened to [8192, 4096]; the bias as a [1, 4096] row; the [8192, 4096] product reshaped to [4, 2048, 4096].
-/
import proofs.«178549_j40664750358903_2_alg».proof.Proof.Spec
import Idealize.ShloMosaic.Lib.Pipeline.Value
import Idealize.ShloMosaic.Lib.ValueLayout

noncomputable section

namespace Cert.KOps

open Idealize.ShloMosaic Idealize.ShloMosaic.ValueIdx Cert.Spec

abbrev T128x128 : Shape := ⟨2, ![128, 128]⟩
abbrev T128x256 : Shape := ⟨2, ![128, 256]⟩
abbrev T256x256 : Shape := ⟨2, ![256, 256]⟩

variable {α : Type}

/-- Two [128, 128] matrices side by side, read left of column 128: the left one. -/
theorem join_cols_left (X Y : T128x128.Idx → α) (h : Shape.Concatenates [T128x128, T128x128] T128x256 1)
    (a : Fin 128) (k : Fin 256) (hk : k.val < 128) :
    concatenate T128x256 1 [⟨T128x128, X⟩, ⟨T128x128, Y⟩] h (ix2 a k) = X (ix2 a ⟨k.val, hk⟩) :=
  concatenate_pair_apply_left 1 X Y h (ix2 a k) rfl (ix2 a ⟨k.val, hk⟩)
    (fun b => match b with | ⟨0, _⟩ => rfl | ⟨1, _⟩ => rfl)

/-- Two [128, 128] matrices side by side, read from column 128 on: the right one. -/
theorem join_cols_right (X Y : T128x128.Idx → α) (h : Shape.Concatenates [T128x128, T128x128] T128x256 1)
    (a : Fin 128) (k : Fin 256) (hk : 128 ≤ k.val) :
    concatenate T128x256 1 [⟨T128x128, X⟩, ⟨T128x128, Y⟩] h (ix2 a k)
      = Y (ix2 a ⟨k.val - 128, by have := k.isLt; omega⟩) :=
  concatenate_pair_apply_right 1 X Y h (ix2 a k) rfl rfl (ix2 a ⟨k.val - 128, by have := k.isLt; omega⟩)
    (fun b hb => match b, hb with | ⟨0, _⟩, _ => rfl | ⟨1, _⟩, hb => absurd rfl hb)
    (by show (k.val - 128) + 128 = k.val; omega)

/-- Two [128, 256] matrices stacked, read above row 128: the upper one. -/
theorem join_rows_upper (X Y : T128x256.Idx → α) (h : Shape.Concatenates [T128x256, T128x256] T256x256 0)
    (j : Fin 256) (k : Fin 256) (hj : j.val < 128) :
    concatenate T256x256 0 [⟨T128x256, X⟩, ⟨T128x256, Y⟩] h (ix2 j k) = X (ix2 ⟨j.val, hj⟩ k) :=
  concatenate_pair_apply_left 0 X Y h (ix2 j k) rfl (ix2 ⟨j.val, hj⟩ k)
    (fun b => match b with | ⟨0, _⟩ => rfl | ⟨1, _⟩ => rfl)

/-- Two [128, 256] matrices stacked, read from row 128 on: the lower one. -/
theorem join_rows_lower (X Y : T128x256.Idx → α) (h : Shape.Concatenates [T128x256, T128x256] T256x256 0)
    (j : Fin 256) (k : Fin 256) (hj : 128 ≤ j.val) :
    concatenate T256x256 0 [⟨T128x256, X⟩, ⟨T128x256, Y⟩] h (ix2 j k)
      = Y (ix2 ⟨j.val - 128, by have := j.isLt; omega⟩ k) :=
  concatenate_pair_apply_right 0 X Y h (ix2 j k) rfl rfl (ix2 ⟨j.val - 128, by have := j.isLt; omega⟩ k)
    (fun b hb => match b, hb with | ⟨0, _⟩, hb => absurd rfl hb | ⟨1, _⟩, _ => rfl)
    (by show (j.val - 128) + 128 = j.val; omega)

/-- The matrix glued from `A` and a zero matrix `Z` — `[A Z]` over `[Z A]` — is the block-diagonal matrix of `A`. -/
theorem glued_eq_bd (A Z : T128x128.Idx → EReal) (hZ : ∀ i, Z i = 0)
    (h1 : Shape.Concatenates [T128x128, T128x128] T128x256 1) (h0 : Shape.Concatenates [T128x256, T128x256] T256x256 0)
    (j k : Fin 256) :
    concatenate T256x256 0 [⟨T128x256, concatenate T128x256 1 [⟨T128x128, A⟩, ⟨T128x128, Z⟩] h1⟩,
        ⟨T128x256, concatenate T128x256 1 [⟨T128x128, Z⟩, ⟨T128x128, A⟩] h1⟩] h0 (ix2 j k)
      = bd (fun a b => A (ix2 a b)) j k := by
  have hjl := j.isLt
  have hkl := k.isLt
  unfold bd
  by_cases hj : j.val < 128
  · rw [join_rows_upper _ _ h0 j k hj]
    by_cases hk : k.val < 128
    · rw [join_cols_left _ _ h1 _ k hk, if_pos (by omega)]
      congr 1
      funext b; apply Fin.ext; match b with
      | ⟨0, _⟩ => show j.val = j.val % 128; omega
      | ⟨1, _⟩ => show k.val = k.val % 128; omega
    · rw [join_cols_right _ _ h1 _ k (by omega), if_neg (by omega)]
      exact hZ _
  · rw [join_rows_lower _ _ h0 j k (by omega)]
    by_cases hk : k.val < 128
    · rw [join_cols_left _ _ h1 _ k hk, if_neg (by omega)]
      exact hZ _
    · rw [join_cols_right _ _ h1 _ k (by omega), if_pos (by omega)]
      congr 1
      funext b; apply Fin.ext; match b with
      | ⟨0, _⟩ => show j.val - 128 = j.val % 128; omega
      | ⟨1, _⟩ => show k.val - 128 = k.val % 128; omega

end Cert.KOps

end
-- ==== Proof.KHost.lean ====
/-
  The contents of the buffers the three launches read and the last host stretch writes, followed through the
  program from the launch memory: the two 256 x 256 matrices are the block-diagonal matrices of the rotation and
  of its transpose; the first launch reads the activations flattened to rows; the second reads the weights as
  launched and the same two matrices; the third reads what the first two wrote and the bias as a row; the result
  is the third launch's array reshaped.
-/
import proofs.«178549_j40664750358903_2_alg».proof.Proof.Gen.KernelIdeal.Frame
import proofs.«178549_j40664750358903_2_alg».proof.Proof.Spec
import proofs.«178549_j40664750358903_2_alg».proof.Proof.KOps
import Idealize.ShloMosaic.Lib.StableHlo.Run
import Idealize.ShloMosaic.Lib.Pipeline.Value
import Idealize.ShloMosaic.Lib.ValueLayout

noncomputable section

namespace Cert.KValue

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg) (c : Dev nD)

/-! ## Before the first launch -/

/-- The first launch's input array is the activations flattened: row `p` of it is row `p` of the activations. -/
theorem V1_v9_apply (p : Fin 8192) (g : Fin 4096) :
    V1 m ρ c main_v9 (ix2 p g) = rowX (m ((c : Thread nD τ).loc main_arg0)) p g := by
  have e : V1 m ρ c main_v9 = shapeCast S8192x4096 (m ((c : Thread nD τ).loc main_arg0)) shapeCasts_S4x2048x4096_S8192x4096 := by
    show StableHlo.after hostOps0 (W0 m ρ c) (Proc.devRef .tc main_v9) = _
    after_results
    rfl
  rw [e]
  unfold rowX
  refine shapeCast_apply _ shapeCasts_S4x2048x4096_S8192x4096 (ix2 p g) _ ?_
  rw [Shape.rowMajor_val_three, Shape.rowMajor_val_two]
  have := p.isLt
  show (p.val / 2048 * 2048 + p.val % 2048) * 4096 + g.val = p.val * 4096 + g.val
  omega

/-- The zero matrix the program glues in has zero entries. -/
theorem zeros_apply (i : S128x128.Idx) :
    broadcastInDim S128x128 ![] bcast_S_S128x128 (constant (F := Ideal) S_ .f32 0x00000000#32) i = (0 : EReal) := by
  show Ideal.ofBits .f32 0x00000000#32 = 0
  exact Ideal.ofBits_zero_f32

/-- The first 256 x 256 matrix is the block-diagonal matrix of the rotation. -/
theorem V1_v4_apply (j k : Fin 256) :
    V1 m ρ c main_v4 (ix2 j k) = bd (matR (m ((c : Thread nD τ).loc main_arg3))) j k := by
  have e : V1 m ρ c main_v4
      = concatenate S256x256 0
          [⟨S128x256, concatenate S128x256 1 [⟨S128x128, m ((c : Thread nD τ).loc main_arg3)⟩,
              ⟨S128x128, broadcastInDim S128x128 ![] bcast_S_S128x128 (constant (F := Ideal) S_ .f32 0x00000000#32)⟩]
              concatenates_S128x128_S128x128_S128x256_d1⟩,
            ⟨S128x256, concatenate S128x256 1 [⟨S128x128, broadcastInDim S128x128 ![] bcast_S_S128x128 (constant (F := Ideal) S_ .f32 0x00000000#32)⟩,
              ⟨S128x128, m ((c : Thread nD τ).loc main_arg3)⟩]
              concatenates_S128x128_S128x128_S128x256_d1⟩]
          concatenates_S128x256_S128x256_S256x256_d0 := by
    show StableHlo.after hostOps0 (W0 m ρ c) (Proc.devRef .tc main_v4) = _
    after_results
  rw [e]
  exact Cert.KOps.glued_eq_bd _ _ zeros_apply _ _ j k

/-- The second 256 x 256 matrix is the block-diagonal matrix of the transposed rotation. -/
theorem V1_v8_apply (j k : Fin 256) :
    V1 m ρ c main_v8 (ix2 j k) = bd (tr (matR (m ((c : Thread nD τ).loc main_arg3)))) j k := by
  have e : V1 m ρ c main_v8
      = concatenate S256x256 0
          [⟨S128x256, concatenate S128x256 1 [⟨S128x128, transpose S128x128 [1, 0] (m ((c : Thread nD τ).loc main_arg3)) transposes_S128x128_S128x128_1_0⟩,
              ⟨S128x128, broadcastInDim S128x128 ![] bcast_S_S128x128 (constant (F := Ideal) S_ .f32 0x00000000#32)⟩]
              concatenates_S128x128_S128x128_S128x256_d1⟩,
            ⟨S128x256, concatenate S128x256 1 [⟨S128x128, broadcastInDim S128x128 ![] bcast_S_S128x128 (constant (F := Ideal) S_ .f32 0x00000000#32)⟩,
              ⟨S128x128, transpose S128x128 [1, 0] (m ((c : Thread nD τ).loc main_arg3)) transposes_S128x128_S128x128_1_0⟩]
              concatenates_S128x128_S128x128_S128x256_d1⟩]
          concatenates_S128x256_S128x256_S256x256_d0 := by
    show StableHlo.after hostOps0 (W0 m ρ c) (Proc.devRef .tc main_v8) = _
    after_results
  rw [e, Cert.KOps.glued_eq_bd _ _ zeros_apply _ _ j k]
  congr 1
  funext a b
  exact transpose_ix2_apply _ transposes_S128x128_S128x128_1_0 a b

/-! ## Between the launches -/

/-- The weights reach the second launch as launched. -/
theorem V2_arg1 : V2 m ρ c main_arg1 = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl

/-- The two matrices reach the second launch as the first found them. -/
theorem V2_v4 : V2 m ρ c main_v4 = V1 m ρ c main_v4 :=
  (W2_arr m ρ c 1).trans (((dat0 (V1 m ρ) c).arrAt_in 1 rfl _).trans (A_eq0 (V1 m ρ) c 1))
theorem V2_v8 : V2 m ρ c main_v8 = V1 m ρ c main_v8 :=
  (W2_arr m ρ c 2).trans (((dat0 (V1 m ρ) c).arrAt_in 2 rfl _).trans (A_eq0 (V1 m ρ) c 2))

/-- The third launch's first input is what the first launch left. -/
theorem V4_v10 : V4 m ρ c main_v10 = (dat0 (V1 m ρ) c).arrAt 3 cfg0.N :=
  calc W4 m ρ c (Proc.devRef .tc main_v10)
    _ = W3 m ρ c (Proc.devRef .tc main_v10) := StableHlo.after_of_forall_not_mem (b := Proc.devRef .tc main_v10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_v10) := W3_of_ne m ρ c main_v10 (by decide)
    _ = (dat0 (V1 m ρ) c).arrAt 3 cfg0.N := W2_arr m ρ c 3

/-- The third launch's second input is what the second launch left. -/
theorem V4_v11 : V4 m ρ c main_v11 = (dat1 (V2 m ρ) c).arrAt 3 cfg1.N :=
  calc W4 m ρ c (Proc.devRef .tc main_v11)
    _ = W3 m ρ c (Proc.devRef .tc main_v11) := StableHlo.after_of_forall_not_mem (b := Proc.devRef .tc main_v11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat1 (V2 m ρ) c).arrAt 3 cfg1.N := W3_arr m ρ c 3

/-- The bias reaches the third launch as a row. -/
theorem V4_v12_apply (o : Fin 4096) :
    V4 m ρ c main_v12 (ix2 (0 : Fin 1) o) = vecB (m ((c : Thread nD τ).loc main_arg2)) o := by
  have e2 : W3 m ρ c (Proc.devRef .tc main_arg2) = m ((c : Thread nD τ).loc main_arg2) :=
    calc W3 m ρ c (Proc.devRef .tc main_arg2)
      _ = W2 m ρ c (Proc.devRef .tc main_arg2) := W3_of_ne m ρ c main_arg2 (by decide)
      _ = W1 m ρ c (Proc.devRef .tc main_arg2) := W2_of_ne m ρ c main_arg2 (by decide)
      _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
      _ = m ((c : Thread nD τ).loc main_arg2) := rfl
  have e : V4 m ρ c main_v12 = shapeCast S1x4096 (W3 m ρ c (Proc.devRef .tc main_arg2)) shapeCasts_S4096_S1x4096 := by
    show StableHlo.after hostOps2 (W3 m ρ c) (Proc.devRef .tc main_v12) = _
    after_results
    rfl
  rw [e, e2]
  unfold vecB
  exact shapeCast_a_1a_apply _ shapeCasts_S4096_S1x4096 (0 : Fin 1) o

/-- The result is the third launch's array reshaped: entry `(a, b, o)` is entry `(2048 a + b, o)`. -/
theorem W6_v14_apply (a : Fin 4) (b : Fin 2048) (o : Fin 4096) :
    W6 m ρ c (Proc.devRef .tc main_v14) (ix3 a b o)
      = (dat2 (V4 m ρ) c).arrAt 3 cfg2.N (ix2 (⟨2048 * a.val + b.val, by have := a.isLt; have := b.isLt; omega⟩ : Fin 8192) o) := by
  have e : W6 m ρ c (Proc.devRef .tc main_v14)
      = shapeCast S4x2048x4096 (W5 m ρ c (Proc.devRef .tc main_v13)) shapeCasts_S8192x4096_S4x2048x4096 := by
    show StableHlo.after hostOps3 (W5 m ρ c) (Proc.devRef .tc main_v14) = _
    after_results
    rfl
  rw [e, W5_arr m ρ c 3]
  refine shapeCast_apply _ shapeCasts_S8192x4096_S4x2048x4096 (ix3 a b o) _ ?_
  rw [Shape.rowMajor_val_three, Shape.rowMajor_val_two]
  show (2048 * a.val + b.val) * 4096 + o.val = (a.val * 2048 + b.val) * 4096 + o.val
  omega

end Cert.KValue

end
-- ==== Proof.KRun.lean ====
/-
  The idealized kernel program's run, with its result read: every weakly fair execution of the program terminates
  without a fault, the argument arrays end as launched, and the result array ends at the contents the last stretch
  of host operations leaves — the fold of the program's host stretches and launches over the launch memory.
  This is the launch theorem for a program of several launches, applied to the program's segments exactly as the
  frame is, with the result buffer read off the final thread state beside the arguments.
-/
import proofs.«178549_j40664750358903_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v14) = W6 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v14 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Gen

end
-- ==== Proof.KValue.lean ====
/-
  The idealized kernel program's result as one function of its arguments: the reshaped product of the fake-quantized
  activations with the fake-quantized weights plus the bias, every row treated with 256-wide rotations against the
  block-diagonal matrices of the rotation and of its transpose. The three launches' arrays are taken as hypotheses
  (what each launch leaves as a function of the arrays it reads) and composed through the buffers' contents between
  the launches.
-/
import proofs.«178549_j40664750358903_2_alg».proof.Proof.KHost
import proofs.«178549_j40664750358903_2_alg».proof.Proof.KRun
import proofs.«178549_j40664750358903_2_alg».proof.Proof.RegionStmt

noncomputable section

namespace Cert.KValue

open Idealize.ShloMosaic Idealize.ShloMosaic.TcCoe Idealize.ShloMosaic.ValueIdx Idealize.SL.Sem Idealize.ShloMosaic.StableHlo
open Cert.KernelIdeal Cert.KernelIdeal.Gen Cert.Spec Cert.KRegion

variable (m : (ℓ : Loc nD τ sig) → Buf (Elt Ideal) ℓ) (ρ : Dev nD → PrngReg) (c : Dev nD)

/-- The first launch leaves the fake quantization of every row of the activations. -/
theorem v10_apply (F0 : Final0) (p : Fin 8192) (k : Fin 4096) :
    rd (s := S8192x4096) (V4 m ρ c main_v10) (ix2 p k)
      = fqK (rowX (m ((c : Thread nD τ).loc main_arg0)) p) (bd (matR (m ((c : Thread nD τ).loc main_arg3))))
          (bd (tr (matR (m ((c : Thread nD τ).loc main_arg3))))) k := by
  show V4 m ρ c main_v10 (ix2 p k) = _
  rw [V4_v10, F0 (V1 m ρ) c]
  show fqK (fun g => V1 m ρ c main_v9 (ix2 p g)) (fun j k => V1 m ρ c main_v4 (ix2 j k)) (fun j k => V1 m ρ c main_v8 (ix2 j k)) k = _
  rw [show (fun g => V1 m ρ c main_v9 (ix2 p g)) = rowX (m ((c : Thread nD τ).loc main_arg0)) p from funext (V1_v9_apply m ρ c p),
    show (fun j k => V1 m ρ c main_v4 (ix2 j k)) = bd (matR (m ((c : Thread nD τ).loc main_arg3))) from
      funext fun j => funext (V1_v4_apply m ρ c j),
    show (fun j k => V1 m ρ c main_v8 (ix2 j k)) = bd (tr (matR (m ((c : Thread nD τ).loc main_arg3)))) from
      funext fun j => funext (V1_v8_apply m ρ c j)]

/-- The second launch leaves, transposed, the fake quantization of every row of the weights. -/
theorem v11_apply (F1 : Final1) (k : Fin 4096) (o : Fin 4096) :
    rd (s := S4096x4096) (V4 m ρ c main_v11) (ix2 k o)
      = fqK (rowW (m ((c : Thread nD τ).loc main_arg1)) o) (bd (matR (m ((c : Thread nD τ).loc main_arg3))))
          (bd (tr (matR (m ((c : Thread nD τ).loc main_arg3))))) k := by
  show V4 m ρ c main_v11 (ix2 k o) = _
  rw [V4_v11, F1 (V2 m ρ) c]
  show fqK (fun g => V2 m ρ c main_arg1 (ix2 o g)) (fun j k => V2 m ρ c main_v4 (ix2 j k)) (fun j k => V2 m ρ c main_v8 (ix2 j k)) k = _
  rw [V2_arg1, V2_v4, V2_v8,
    show (fun j k => V1 m ρ c main_v4 (ix2 j k)) = bd (matR (m ((c : Thread nD τ).loc main_arg3))) from
      funext fun j => funext (V1_v4_apply m ρ c j),
    show (fun j k => V1 m ρ c main_v8 (ix2 j k)) = bd (tr (matR (m ((c : Thread nD τ).loc main_arg3)))) from
      funext fun j => funext (V1_v8_apply m ρ c j)]
  rfl

/-- The result array is the specification's function of the four arguments. -/
theorem result_eq (F0 : Final0) (F1 : Final1) (F2 : Final2) :
    W6 m ρ c (Proc.devRef .tc main_v14)
      = resK (m ((c : Thread nD τ).loc main_arg0)) (m ((c : Thread nD τ).loc main_arg1))
          (m ((c : Thread nD τ).loc main_arg2)) (m ((c : Thread nD τ).loc main_arg3)) := by
  funext i
  obtain ⟨a, b, o, rfl⟩ : ∃ (a : Fin 4) (b : Fin 2048) (o : Fin 4096), i = ix3 a b o := ⟨i 0, i 1, i 2, eq_ix3 i⟩
  rw [W6_v14_apply, F2 (V4 m ρ) c]
  show (∑ k : Fin 4096, rd (s := S8192x4096) (V4 m ρ c main_v10) (ix2 (⟨2048 * a.val + b.val, by have := a.isLt; have := b.isLt; omega⟩ : Fin 8192) k)
        * rd (s := S4096x4096) (V4 m ρ c main_v11) (ix2 k o))
      + rd (s := S1x4096) (V4 m ρ c main_v12) (ix2 (0 : Fin 1) o) = _
  rw [show rd (s := S1x4096) (V4 m ρ c main_v12) (ix2 (0 : Fin 1) o) = vecB (m ((c : Thread nD τ).loc main_arg2)) o from V4_v12_apply m ρ c o]
  simp only [v10_apply m ρ c F0, v11_apply m ρ c F1]
  rfl

/-- The idealized kernel program runs, its arguments end as launched, and its result ends at the specification's
    function of the arguments. -/
theorem kernel_run (F0 : Final0) (F1 : Final1) (F2 : Final2) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v14)
          = resK (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.KernelIdeal.defs (F := Ideal)) _ _).mono
    (fun r h c => ⟨(h c).1.trans (result_eq m ρ c F0 F1 F2), (h c).2⟩) (Gen.run_result (F := Ideal) m ρ)

end Cert.KValue

end
-- ==== Proof.RefRows.lean ====
/-
  The activations' side of the reference program, read row by row.

  The reference flattens nothing: it views each row of 4096 entries as 32 blocks of 128, multiplies every block by
  the rotation, and views the result as a row again. Entry `(a, b, f)` of that array is therefore the sum over the
  128 entries of `f`'s block against column `f % 128` of the rotation, which is entry `f` of the rotated row
  `2048 a + b`. The minimum and the maximum over the last axis are the row's minimum and maximum, the keepdims
  columns carry them (clamped against zero), the step size and the zero point to every entry of the row, and the
  pointwise chain of divisions, roundings, shifts and clamps is the quantize-dequantize function of the
  specification. The second block product, against the transposed rotation, rotates the treated row back.
-/
import proofs.«178549_j40664750358903_2_alg».proof.Proof.Gen.ReferenceIdeal.Read
import proofs.«178549_j40664750358903_2_alg».proof.Proof.Spec

noncomputable section

namespace Cert.RefRows

open Idealize.ShloMosaic Idealize.ShloMosaic.ValueIdx Cert.ReferenceIdeal Cert.ReferenceIdeal.Read Cert.Spec

/-- The flattened row number of the pair of leading coordinates. -/
abbrev pq (a : Fin 4) (b : Fin 2048) : Fin 8192 := ⟨2048 * a.val + b.val, by have := a.isLt; have := b.isLt; omega⟩

theorem rowX_pq (x0 : (⟨S4x2048x4096, .f32⟩ : BufTy).Contents (Elt Ideal)) (a : Fin 4) (b : Fin 2048) (g : Fin 4096) :
    rowX x0 (pq a b) g = x0 (ix3 a b g) := by
  unfold rowX
  refine congrArg x0 ?_
  funext c
  apply Fin.ext
  match c with
  | ⟨0, _⟩ => show (2048 * a.val + b.val) / 2048 = a.val; have := b.isLt; omega
  | ⟨1, _⟩ => show (2048 * a.val + b.val) % 2048 = b.val; have := b.isLt; omega
  | ⟨2, _⟩ => rfl

theorem idx_v2 (a : Fin 4) (b : Fin 2048) (f : Fin 4096) :
    idx_main_v2 (ix3 a b f) = ix4 a b (⟨f.val / 128, by have := f.isLt; omega⟩ : Fin 32) (⟨f.val % 128, Nat.mod_lt _ (by norm_num)⟩ : Fin 128) := by
  funext c
  apply Fin.ext
  have ha := a.isLt; have hb := b.isLt; have hf := f.isLt
  match c with
  | ⟨0, _⟩ => show ((a.val * 2048 + b.val) * 4096 + f.val) / 8388608 = a.val; omega
  | ⟨1, _⟩ => show ((a.val * 2048 + b.val) * 4096 + f.val) / 4096 % 2048 = b.val; omega
  | ⟨2, _⟩ => show ((a.val * 2048 + b.val) * 4096 + f.val) / 128 % 32 = f.val / 128; omega
  | ⟨3, _⟩ => show ((a.val * 2048 + b.val) * 4096 + f.val) % 128 = f.val % 128; omega

theorem lidx_v1 (a : Fin 4) (b : Fin 2048) (c : Fin 32) (d k : Fin 128) :
    lidx_main_v1 (ix4 a b c d) k = ix4 a b c k := by
  funext e
  match e with
  | ⟨0, _⟩ => rfl
  | ⟨1, _⟩ => rfl
  | ⟨2, _⟩ => rfl
  | ⟨3, _⟩ => rfl

theorem ridx_v1 (a : Fin 4) (b : Fin 2048) (c : Fin 32) (d k : Fin 128) :
    ridx_main_v1 (ix4 a b c d) k = ix2 k d := by
  funext e
  match e with
  | ⟨0, _⟩ => rfl
  | ⟨1, _⟩ => rfl

theorem idx_v0 (a : Fin 4) (b : Fin 2048) (c : Fin 32) (k : Fin 128) :
    idx_main_v0 (ix4 a b c k) = ix3 a b (⟨128 * c.val + k.val, by have := c.isLt; have := k.isLt; omega⟩ : Fin 4096) := by
  funext e
  apply Fin.ext
  have ha := a.isLt; have hb := b.isLt; have hc := c.isLt; have hk := k.isLt
  match e with
  | ⟨0, _⟩ => show (((a.val * 2048 + b.val) * 32 + c.val) * 128 + k.val) / 8388608 = a.val; omega
  | ⟨1, _⟩ => show (((a.val * 2048 + b.val) * 32 + c.val) * 128 + k.val) / 4096 % 2048 = b.val; omega
  | ⟨2, _⟩ => show (((a.val * 2048 + b.val) * 32 + c.val) * 128 + k.val) % 4096 = 128 * c.val + k.val; omega

/-- The first rotation: entry `(a, b, f)` of the rotated activations is entry `f` of the rotated row. -/
theorem v2_eq (x0 : (⟨S4x2048x4096, .f32⟩ : BufTy).Contents (Elt Ideal)) (x3 : (⟨S128x128, .f32⟩ : BufTy).Contents (Elt Ideal))
    (a : Fin 4) (b : Fin 2048) (f : Fin 4096) :
    val_main_v2 (F := Ideal) x0 x3 (ix3 a b f) = rot (rowX x0 (pq a b)) (matR x3) f := by
  rw [val_main_v2_apply, idx_v2, val_main_v1_apply]
  unfold rot
  refine Finset.sum_congr rfl fun k _ => ?_
  rw [val_main_v0_apply, lidx_v1, ridx_v1, idx_v0, rowX_pq]
  rfl

instance minCommutative : Std.Commutative (α := EReal) min := ⟨min_comm⟩
instance minAssociative : Std.Associative (α := EReal) min := ⟨min_assoc⟩
instance maxCommutative : Std.Commutative (α := EReal) max := ⟨max_comm⟩
instance maxAssociative : Std.Associative (α := EReal) max := ⟨max_assoc⟩

theorem red3 : (S4x2048x4096).Reduces [2] S4x2048 := by decide

theorem lift3 (a : Fin 4) (b : Fin 2048) (k : Fin 4096) : red3.lift (ix2 a b) k = ix3 a b k := by
  funext c
  apply Fin.ext
  match c with
  | ⟨0, _⟩ => rfl
  | ⟨1, _⟩ => rfl
  | ⟨2, _⟩ => rfl

/-- A minimum over the last axis of a `[4, 2048, 4096]` array, started at plus infinity, is the row's minimum. -/
theorem reduce_min3 (y : (⟨S4x2048x4096, .f32⟩ : BufTy).Contents (Elt Ideal)) (a : Fin 4) (b : Fin 2048) :
    Host.reduce (FloatOps.minimumf (F := Ideal) (φ := .f32)) y (val_main_cst (F := Ideal)) Gen.reducesTo_S4x2048x4096_S4x2048_d2 Gen.h_S_ (ix2 a b)
      = rowMin (fun f => y (ix3 a b f)) := by
  refine (Host.reduce_eq_fold_single (FloatOps.minimumf (F := Ideal) (φ := .f32)) y _ _ red3 _ (ix2 a b)).trans ?_
  unfold rowMin
  exact congrArg (fun g : Fin 4096 → EReal => Finset.fold min cTop g Finset.univ) (funext fun k => congrArg y (lift3 a b k))

/-- A maximum over the last axis of a `[4, 2048, 4096]` array, started at minus infinity, is the row's maximum. -/
theorem reduce_max3 (y : (⟨S4x2048x4096, .f32⟩ : BufTy).Contents (Elt Ideal)) (a : Fin 4) (b : Fin 2048) :
    Host.reduce (FloatOps.maximumf (F := Ideal) (φ := .f32)) y (val_main_cst_1 (F := Ideal)) Gen.reducesTo_S4x2048x4096_S4x2048_d2 Gen.h_S_ (ix2 a b)
      = rowMax (fun f => y (ix3 a b f)) := by
  refine (Host.reduce_eq_fold_single (FloatOps.maximumf (F := Ideal) (φ := .f32)) y _ _ red3 _ (ix2 a b)).trans ?_
  unfold rowMax
  exact congrArg (fun g : Fin 4096 → EReal => Finset.fold max cBot g Finset.univ) (funext fun k => congrArg y (lift3 a b k))

/-- The row of the rotated activations at the leading coordinates `(a, b)`. -/
abbrev yX (x0 : (⟨S4x2048x4096, .f32⟩ : BufTy).Contents (Elt Ideal)) (x3 : (⟨S128x128, .f32⟩ : BufTy).Contents (Elt Ideal))
    (a : Fin 4) (b : Fin 2048) : Row := fun f => val_main_v2 (F := Ideal) x0 x3 (ix3 a b f)

theorem v3_eq (x0 : (⟨S4x2048x4096, .f32⟩ : BufTy).Contents (Elt Ideal)) (x3 : (⟨S128x128, .f32⟩ : BufTy).Contents (Elt Ideal))
    (a : Fin 4) (b : Fin 2048) :
    val_main_v3 (F := Ideal) x0 x3 (ix2 a b) = rowMin (yX x0 x3 a b) :=
  reduce_min3 (val_main_v2 (F := Ideal) x0 x3) a b

theorem v7_eq (x0 : (⟨S4x2048x4096, .f32⟩ : BufTy).Contents (Elt Ideal)) (x3 : (⟨S128x128, .f32⟩ : BufTy).Contents (Elt Ideal))
    (a : Fin 4) (b : Fin 2048) :
    val_main_v7 (F := Ideal) x0 x3 (ix2 a b) = rowMax (yX x0 x3 a b) :=
  reduce_max3 (val_main_v2 (F := Ideal) x0 x3) a b

theorem idx_v4 (a : Fin 4) (b : Fin 2048) (u : Fin 1) : idx_main_v4 (ix3 a b u) = ix2 a b := by
  funext c
  match c with
  | ⟨0, _⟩ => rfl
  | ⟨1, _⟩ => rfl

theorem idx_v18 (a : Fin 4) (b : Fin 2048) (f : Fin 4096) : idx_main_v18 (ix3 a b f) = ix3 a b (0 : Fin 1) := by
  funext c
  match c with
  | ⟨0, _⟩ => rfl
  | ⟨1, _⟩ => rfl
  | ⟨2, _⟩ => rfl

section
variable (x0 : (⟨S4x2048x4096, .f32⟩ : BufTy).Contents (Elt Ideal)) (x3 : (⟨S128x128, .f32⟩ : BufTy).Contents (Elt Ideal))
  (a : Fin 4) (b : Fin 2048)

/-- The clamped minimum of the row. -/
theorem v6_eq (u : Fin 1) : val_main_v6 (F := Ideal) x0 x3 (ix3 a b u) = lo (yX x0 x3 a b) := by
  rw [val_main_v6_apply, val_main_v4_apply, val_main_v5_apply, val_main_cst_0_apply, idx_v4, v3_eq]
  unfold lo
  rw [Ideal.minimumf_def, Ideal.ofBits_def, Ideal.ofBits_zero_f32]

/-- The clamped maximum of the row. -/
theorem v10_eq (u : Fin 1) : val_main_v10 (F := Ideal) x0 x3 (ix3 a b u) = hi (yX x0 x3 a b) := by
  rw [val_main_v10_apply, val_main_v8_apply, val_main_v9_apply, val_main_cst_2_apply]
  rw [show idx_main_v8 (ix3 a b u) = ix2 a b from idx_v4 a b u, v7_eq]
  unfold hi
  rw [Ideal.maximumf_def, Ideal.ofBits_def, Ideal.ofBits_zero_f32]

/-- The step size of the row. -/
theorem v14_eq (u : Fin 1) : val_main_v14 (F := Ideal) x0 x3 (ix3 a b u) = step (yX x0 x3 a b) := by
  rw [val_main_v14_apply, val_main_call0_v1_apply, val_main_call0_v0_apply, val_main_cst_4_apply, val_main_v13_apply,
    val_main_v11_apply, val_main_v12_apply, val_main_cst_3_apply, v10_eq, v6_eq]
  rfl

/-- The zero point of the row. -/
theorem v17_eq (u : Fin 1) : val_main_v17 (F := Ideal) x0 x3 (ix3 a b u) = zpR (yX x0 x3 a b) := by
  rw [val_main_v17_apply, val_main_v16_apply, val_main_v15_apply, v14_eq, v6_eq]
  rfl

/-- An entry of the row divided by the step. -/
theorem v19_eq (f : Fin 4096) :
    val_main_v19 (F := Ideal) x0 x3 (ix3 a b f) = Ideal.div (yX x0 x3 a b f) (step (yX x0 x3 a b)) := by
  rw [val_main_v19_apply, val_main_v18_apply, idx_v18, v14_eq]
  rfl

/-- The quantized and dequantized entry. -/
theorem v29_eq (f : Fin 4096) : val_main_v29 (F := Ideal) x0 x3 (ix3 a b f) = dqR (yX x0 x3 a b) f := by
  rw [val_main_v29_apply, val_main_v27_apply, val_main_v28_apply, val_main_v25_apply, val_main_v26_apply,
    val_main_call3_v4_apply, val_main_call3_v3_apply, val_main_cst_6_apply, val_main_call3_v2_apply,
    val_main_call3_v1_apply, val_main_call3_v0_apply, val_main_cst_5_apply, val_main_v24_apply, val_main_v23_apply,
    val_main_v22_apply, val_main_v21_apply, val_main_v20_apply]
  rw [show idx_main_v28 (ix3 a b f) = ix3 a b (0 : Fin 1) from idx_v18 a b f,
    show idx_main_v26 (ix3 a b f) = ix3 a b (0 : Fin 1) from idx_v18 a b f,
    show idx_main_v23 (ix3 a b f) = ix3 a b (0 : Fin 1) from idx_v18 a b f, v19_eq, v17_eq, v14_eq]
  unfold dqR
  rw [Ideal.ofBits_def, Ideal.ofBits_def, Ideal.ofBits_zero_f32]
  rfl

end

theorem idx_v30 (k d : Fin 128) : idx_main_v30 (ix2 k d) = ix2 d k := by
  funext c
  match c with
  | ⟨0, _⟩ => rfl
  | ⟨1, _⟩ => rfl

/-- The rotation back: entry `(a, b, f)` of the result is entry `f` of the treated row rotated by the transpose. -/
theorem v33_eq (x0 : (⟨S4x2048x4096, .f32⟩ : BufTy).Contents (Elt Ideal)) (x3 : (⟨S128x128, .f32⟩ : BufTy).Contents (Elt Ideal))
    (a : Fin 4) (b : Fin 2048) (f : Fin 4096) :
    val_main_v33 (F := Ideal) x0 x3 (ix3 a b f) = rot (dqR (yX x0 x3 a b)) (tr (matR x3)) f := by
  rw [val_main_v33_apply, show idx_main_v33 (ix3 a b f) = _ from idx_v2 a b f, val_main_v32_apply]
  unfold rot
  refine Finset.sum_congr rfl fun k _ => ?_
  rw [val_main_v31_apply, val_main_v30_apply,
    show lidx_main_v32 (ix4 a b (⟨f.val / 128, by have := f.isLt; omega⟩ : Fin 32) (⟨f.val % 128, Nat.mod_lt _ (by norm_num)⟩ : Fin 128)) k = _ from lidx_v1 a b _ _ k,
    show ridx_main_v32 (ix4 a b (⟨f.val / 128, by have := f.isLt; omega⟩ : Fin 32) (⟨f.val % 128, Nat.mod_lt _ (by norm_num)⟩ : Fin 128)) k = _ from ridx_v1 a b _ _ k,
    show idx_main_v31 (ix4 a b (⟨f.val / 128, by have := f.isLt; omega⟩ : Fin 32) k) = _ from idx_v0 a b _ k, idx_v30, v29_eq]
  rfl

/-- The treated activations: entry `(a, b, f)` is entry `f` of the fake quantization of row `2048 a + b`. -/
theorem v33_fq (x0 : (⟨S4x2048x4096, .f32⟩ : BufTy).Contents (Elt Ideal)) (x3 : (⟨S128x128, .f32⟩ : BufTy).Contents (Elt Ideal))
    (a : Fin 4) (b : Fin 2048) (f : Fin 4096) :
    val_main_v33 (F := Ideal) x0 x3 (ix3 a b f) = fqR (rowX x0 (pq a b)) (matR x3) f := by
  rw [v33_eq]
  unfold fqR
  rw [show yX x0 x3 a b = rot (rowX x0 (pq a b)) (matR x3) from funext fun g => v2_eq x0 x3 a b g]

end Cert.RefRows

end
-- ==== Proof.RefWeights.lean ====
/-
  The weights' side of the reference program, read row by row.

  The same treatment as the activations', on a two-axis array: row `o` of 4096 entries is viewed as 32 blocks of
  128, every block is multiplied by the rotation, the row's minimum and maximum (clamped against zero) give the
  step size and the zero point, every entry is quantized and dequantized, and the second block product, against
  the transposed rotation, rotates the treated row back. Entry `(o, f)` of the result is entry `f` of the fake
  quantization of row `o`.
-/
import proofs.«178549_j40664750358903_2_alg».proof.Proof.RefRows

noncomputable section

namespace Cert.RefWeights

open Idealize.ShloMosaic Idealize.ShloMosaic.ValueIdx Cert.ReferenceIdeal Cert.ReferenceIdeal.Read Cert.Spec

theorem idx_v36 (o f : Fin 4096) :
    idx_main_v36 (ix2 o f) = ix3 o (⟨f.val / 128, by have := f.isLt; omega⟩ : Fin 32) (⟨f.val % 128, Nat.mod_lt _ (by norm_num)⟩ : Fin 128) := by
  funext c
  apply Fin.ext
  have ho := o.isLt; have hf := f.isLt
  match c with
  | ⟨0, _⟩ => show (o.val * 4096 + f.val) / 4096 = o.val; omega
  | ⟨1, _⟩ => show (o.val * 4096 + f.val) / 128 % 32 = f.val / 128; omega
  | ⟨2, _⟩ => show (o.val * 4096 + f.val) % 128 = f.val % 128; omega

theorem lidx_v35 (o : Fin 4096) (c : Fin 32) (d k : Fin 128) : lidx_main_v35 (ix3 o c d) k = ix3 o c k := by
  funext e
  match e with
  | ⟨0, _⟩ => rfl
  | ⟨1, _⟩ => rfl
  | ⟨2, _⟩ => rfl

theorem ridx_v35 (o : Fin 4096) (c : Fin 32) (d k : Fin 128) : ridx_main_v35 (ix3 o c d) k = ix2 k d := by
  funext e
  match e with
  | ⟨0, _⟩ => rfl
  | ⟨1, _⟩ => rfl

theorem idx_v34 (o : Fin 4096) (c : Fin 32) (k : Fin 128) :
    idx_main_v34 (ix3 o c k) = ix2 o (⟨128 * c.val + k.val, by have := c.isLt; have := k.isLt; omega⟩ : Fin 4096) := by
  funext e
  apply Fin.ext
  have ho := o.isLt; have hc := c.isLt; have hk := k.isLt
  match e with
  | ⟨0, _⟩ => show ((o.val * 32 + c.val) * 128 + k.val) / 4096 = o.val; omega
  | ⟨1, _⟩ => show ((o.val * 32 + c.val) * 128 + k.val) % 4096 = 128 * c.val + k.val; omega

/-- The first rotation: entry `(o, f)` of the rotated weights is entry `f` of the rotated row `o`. -/
theorem v36_eq (x1 : (⟨S4096x4096, .f32⟩ : BufTy).Contents (Elt Ideal)) (x3 : (⟨S128x128, .f32⟩ : BufTy).Contents (Elt Ideal))
    (o f : Fin 4096) :
    val_main_v36 (F := Ideal) x1 x3 (ix2 o f) = rot (rowW x1 o) (matR x3) f := by
  rw [val_main_v36_apply, idx_v36, val_main_v35_apply]
  unfold rot
  refine Finset.sum_congr rfl fun k _ => ?_
  rw [val_main_v34_apply, lidx_v35, ridx_v35, idx_v34]
  rfl

theorem red2 : (S4096x4096).Reduces [1] S4096 := by decide

theorem lift2 (o k : Fin 4096) : red2.lift (ix1 o) k = ix2 o k := by
  funext c
  apply Fin.ext
  match c with
  | ⟨0, _⟩ => rfl
  | ⟨1, _⟩ => rfl

/-- A minimum over the last axis of a `[4096, 4096]` array, started at plus infinity, is the row's minimum. -/
theorem reduce_min2 (y : (⟨S4096x4096, .f32⟩ : BufTy).Contents (Elt Ideal)) (o : Fin 4096) :
    Host.reduce (FloatOps.minimumf (F := Ideal) (φ := .f32)) y (val_main_cst_7 (F := Ideal)) Gen.reducesTo_S4096x4096_S4096_d1 Gen.h_S_ (ix1 o)
      = rowMin (fun f => y (ix2 o f)) := by
  refine (Host.reduce_eq_fold_single (FloatOps.minimumf (F := Ideal) (φ := .f32)) y _ _ red2 _ (ix1 o)).trans ?_
  unfold rowMin
  exact congrArg (fun g : Fin 4096 → EReal => Finset.fold min cTop g Finset.univ) (funext fun k => congrArg y (lift2 o k))

/-- A maximum over the last axis of a `[4096, 4096]` array, started at minus infinity, is the row's maximum. -/
theorem reduce_max2 (y : (⟨S4096x4096, .f32⟩ : BufTy).Contents (Elt Ideal)) (o : Fin 4096) :
    Host.reduce (FloatOps.maximumf (F := Ideal) (φ := .f32)) y (val_main_cst_9 (F := Ideal)) Gen.reducesTo_S4096x4096_S4096_d1 Gen.h_S_ (ix1 o)
      = rowMax (fun f => y (ix2 o f)) := by
  refine (Host.reduce_eq_fold_single (FloatOps.maximumf (F := Ideal) (φ := .f32)) y _ _ red2 _ (ix1 o)).trans ?_
  unfold rowMax
  exact congrArg (fun g : Fin 4096 → EReal => Finset.fold max cBot g Finset.univ) (funext fun k => congrArg y (lift2 o k))

/-- Row `o` of the rotated weights. -/
abbrev yW (x1 : (⟨S4096x4096, .f32⟩ : BufTy).Contents (Elt Ideal)) (x3 : (⟨S128x128, .f32⟩ : BufTy).Contents (Elt Ideal))
    (o : Fin 4096) : Row := fun f => val_main_v36 (F := Ideal) x1 x3 (ix2 o f)

theorem v37_eq (x1 : (⟨S4096x4096, .f32⟩ : BufTy).Contents (Elt Ideal)) (x3 : (⟨S128x128, .f32⟩ : BufTy).Contents (Elt Ideal))
    (o : Fin 4096) :
    val_main_v37 (F := Ideal) x1 x3 (ix1 o) = rowMin (yW x1 x3 o) :=
  reduce_min2 (val_main_v36 (F := Ideal) x1 x3) o

theorem v41_eq (x1 : (⟨S4096x4096, .f32⟩ : BufTy).Contents (Elt Ideal)) (x3 : (⟨S128x128, .f32⟩ : BufTy).Contents (Elt Ideal))
    (o : Fin 4096) :
    val_main_v41 (F := Ideal) x1 x3 (ix1 o) = rowMax (yW x1 x3 o) :=
  reduce_max2 (val_main_v36 (F := Ideal) x1 x3) o

theorem idx_v38 (o : Fin 4096) (u : Fin 1) : idx_main_v38 (ix2 o u) = ix1 o := by
  funext c
  match c with
  | ⟨0, _⟩ => rfl

theorem idx_v52 (o f : Fin 4096) : idx_main_v52 (ix2 o f) = ix2 o (0 : Fin 1) := by
  funext c
  match c with
  | ⟨0, _⟩ => rfl
  | ⟨1, _⟩ => rfl

section
variable (x1 : (⟨S4096x4096, .f32⟩ : BufTy).Contents (Elt Ideal)) (x3 : (⟨S128x128, .f32⟩ : BufTy).Contents (Elt Ideal))
  (o : Fin 4096)

/-- The clamped minimum of the row. -/
theorem v40_eq (u : Fin 1) : val_main_v40 (F := Ideal) x1 x3 (ix2 o u) = lo (yW x1 x3 o) := by
  rw [val_main_v40_apply, val_main_v38_apply, val_main_v39_apply, val_main_cst_8_apply, idx_v38, v37_eq]
  unfold lo
  rw [Ideal.minimumf_def, Ideal.ofBits_def, Ideal.ofBits_zero_f32]

/-- The clamped maximum of the row. -/
theorem v44_eq (u : Fin 1) : val_main_v44 (F := Ideal) x1 x3 (ix2 o u) = hi (yW x1 x3 o) := by
  rw [val_main_v44_apply, val_main_v42_apply, val_main_v43_apply, val_main_cst_10_apply]
  rw [show idx_main_v42 (ix2 o u) = ix1 o from idx_v38 o u, v41_eq]
  unfold hi
  rw [Ideal.maximumf_def, Ideal.ofBits_def, Ideal.ofBits_zero_f32]

/-- The step size of the row. -/
theorem v48_eq (u : Fin 1) : val_main_v48 (F := Ideal) x1 x3 (ix2 o u) = step (yW x1 x3 o) := by
  rw [val_main_v48_apply, val_main_call4_v1_apply, val_main_call4_v0_apply, val_main_cst_12_apply, val_main_v47_apply,
    val_main_v45_apply, val_main_v46_apply, val_main_cst_11_apply, v44_eq, v40_eq]
  rfl

/-- The zero point of the row. -/
theorem v51_eq (u : Fin 1) : val_main_v51 (F := Ideal) x1 x3 (ix2 o u) = zpR (yW x1 x3 o) := by
  rw [val_main_v51_apply, val_main_v50_apply, val_main_v49_apply, v48_eq, v40_eq]
  rfl

/-- An entry of the row divided by the step. -/
theorem v53_eq (f : Fin 4096) :
    val_main_v53 (F := Ideal) x1 x3 (ix2 o f) = Ideal.div (yW x1 x3 o f) (step (yW x1 x3 o)) := by
  rw [val_main_v53_apply, val_main_v52_apply, idx_v52, v48_eq]
  rfl

/-- The quantized and dequantized entry. -/
theorem v63_eq (f : Fin 4096) : val_main_v63 (F := Ideal) x1 x3 (ix2 o f) = dqR (yW x1 x3 o) f := by
  rw [val_main_v63_apply, val_main_v61_apply, val_main_v62_apply, val_main_v59_apply, val_main_v60_apply,
    val_main_call7_v4_apply, val_main_call7_v3_apply, val_main_cst_14_apply, val_main_call7_v2_apply,
    val_main_call7_v1_apply, val_main_call7_v0_apply, val_main_cst_13_apply, val_main_v58_apply, val_main_v57_apply,
    val_main_v56_apply, val_main_v55_apply, val_main_v54_apply]
  rw [show idx_main_v62 (ix2 o f) = ix2 o (0 : Fin 1) from idx_v52 o f,
    show idx_main_v60 (ix2 o f) = ix2 o (0 : Fin 1) from idx_v52 o f,
    show idx_main_v57 (ix2 o f) = ix2 o (0 : Fin 1) from idx_v52 o f, v53_eq, v51_eq, v48_eq]
  unfold dqR
  rw [Ideal.ofBits_def, Ideal.ofBits_def, Ideal.ofBits_zero_f32]
  rfl

end

/-- The rotation back: entry `(o, f)` of the result is entry `f` of the treated row rotated by the transpose. -/
theorem v67_eq (x1 : (⟨S4096x4096, .f32⟩ : BufTy).Contents (Elt Ideal)) (x3 : (⟨S128x128, .f32⟩ : BufTy).Contents (Elt Ideal))
    (o f : Fin 4096) :
    val_main_v67 (F := Ideal) x1 x3 (ix2 o f) = rot (dqR (yW x1 x3 o)) (tr (matR x3)) f := by
  rw [val_main_v67_apply, show idx_main_v67 (ix2 o f) = _ from idx_v36 o f, val_main_v66_apply]
  unfold rot
  refine Finset.sum_congr rfl fun k _ => ?_
  rw [val_main_v65_apply, val_main_v64_apply,
    show lidx_main_v66 (ix3 o (⟨f.val / 128, by have := f.isLt; omega⟩ : Fin 32) (⟨f.val % 128, Nat.mod_lt _ (by norm_num)⟩ : Fin 128)) k = _ from lidx_v35 o _ _ k,
    show ridx_main_v66 (ix3 o (⟨f.val / 128, by have := f.isLt; omega⟩ : Fin 32) (⟨f.val % 128, Nat.mod_lt _ (by norm_num)⟩ : Fin 128)) k = _ from ridx_v35 o _ _ k,
    show idx_main_v65 (ix3 o (⟨f.val / 128, by have := f.isLt; omega⟩ : Fin 32) k) = _ from idx_v34 o _ k,
    show idx_main_v64 (ix2 k (⟨f.val % 128, Nat.mod_lt _ (by norm_num)⟩ : Fin 128)) = _ from Cert.RefRows.idx_v30 k _, v63_eq]
  rfl

/-- The treated weights: entry `(o, f)` is entry `f` of the fake quantization of row `o`. -/
theorem v67_fq (x1 : (⟨S4096x4096, .f32⟩ : BufTy).Contents (Elt Ideal)) (x3 : (⟨S128x128, .f32⟩ : BufTy).Contents (Elt Ideal))
    (o f : Fin 4096) :
    val_main_v67 (F := Ideal) x1 x3 (ix2 o f) = fqR (rowW x1 o) (matR x3) f := by
  rw [v67_eq]
  unfold fqR
  rw [show yW x1 x3 o = rot (rowW x1 o) (matR x3) from funext fun g => v36_eq x1 x3 o g]

end Cert.RefWeights

end
-- ==== Proof.RefValue.lean ====
/-
  The reference program computes the specification's function.

  The last three operations of the reference are a product that contracts the last axis of the treated activations
  with the last axis of the treated weights, a broadcast of the bias over the two leading axes, and a sum. With the
  treated activations and weights read as fake-quantized rows, entry `(a, b, o)` of the result is the sum over the
  4096 features of the two treated rows' entries, plus the bias at `o`: the linear layer of the specification at row
  `2048 a + b` and column `o`.
-/
import proofs.«178549_j40664750358903_2_alg».proof.Proof.RefWeights

noncomputable section

namespace Cert.RefValue

open Idealize.ShloMosaic Idealize.ShloMosaic.ValueIdx Cert.ReferenceIdeal Cert.ReferenceIdeal.Read Cert.Spec

theorem lidx_v68 (a : Fin 4) (b : Fin 2048) (o k : Fin 4096) : lidx_main_v68 (ix3 a b o) k = ix3 a b k := by
  funext e
  match e with
  | ⟨0, _⟩ => rfl
  | ⟨1, _⟩ => rfl
  | ⟨2, _⟩ => rfl

theorem ridx_v68 (a : Fin 4) (b : Fin 2048) (o k : Fin 4096) : ridx_main_v68 (ix3 a b o) k = ix2 o k := by
  funext e
  match e with
  | ⟨0, _⟩ => rfl
  | ⟨1, _⟩ => rfl

theorem idx_v70 (a : Fin 4) (b : Fin 2048) (o : Fin 4096) : idx_main_v69 (idx_main_v70 (ix3 a b o)) = ix1 o := by
  funext e
  match e with
  | ⟨0, _⟩ => rfl

/-- The reference program's result is the linear layer on the treated rows: entry `(a, b, o)` is the product of the
    fake quantization of activation row `2048 a + b` with the fake quantization of weight row `o`, plus the bias at
    `o`. -/
theorem ref_value (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S128x128, .f32⟩ : BufTy).Contents (Elt Ideal)) :
    Cert.ReferenceIdeal.Read.val_main_v71 (F := Ideal) x0 x1 x2 x3 = Cert.Spec.resR x0 x1 x2 x3 := by
  funext i
  obtain ⟨a, b, o, rfl⟩ : ∃ (a : Fin 4) (b : Fin 2048) (o : Fin 4096), i = ix3 a b o := ⟨i 0, i 1, i 2, eq_ix3 i⟩
  rw [val_main_v71_apply, val_main_v68_apply, val_main_v70_apply, val_main_v69_apply, idx_v70]
  show (∑ k : Fin 4096, val_main_v33 (F := Ideal) x0 x3 (lidx_main_v68 (ix3 a b o) k)
        * val_main_v67 (F := Ideal) x1 x3 (ridx_main_v68 (ix3 a b o) k)) + x2 (ix1 o)
      = (∑ k : Fin 4096, fqR (rowX x0 (Cert.RefRows.pq a b)) (matR x3) k * fqR (rowW x1 o) (matR x3) k) + vecB x2 o
  refine congrArg (· + x2 (ix1 o)) (Finset.sum_congr rfl fun k _ => ?_)
  rw [lidx_v68, ridx_v68, Cert.RefRows.v33_fq, Cert.RefWeights.v67_fq]

end Cert.RefValue

end
-- ==== Proof.lean ====
/-
  The certificate of the fake-quantized linear layer: the kernel's three launches (quantize the activations,
  quantize and transpose the weights, multiply and add the bias) against the reference written with plain array
  operations, equal as extended reals under the precondition that every input entry is a real number.

  The three frames are the generated ones (the reference's is its generated run with the result dropped), and the
  idealization rewrote nothing. For the values: each kernel body leaves in its output block, row by row, the fake
  quantization of the input block's row with 256-wide rotations (Proof/BodyQ0, BodyQ1) or the product plus the
  bias (Proof/BodyM); each launch's blocks tile its output array (Proof/Region0–2); the buffers between the
  launches are followed from the launch memory, the glued 256 x 256 matrices being the block-diagonal matrices of
  the rotation and of its transpose (Proof/KOps, KHost, KValue). The reference's result is the same layer with
  128-wide rotations, the rounding written v + (round v - v) (Proof/RefValue). A 256-wide rotation by a
  block-diagonal matrix is the 128-wide rotation because the off-diagonal products are zero, and
  v + (round v - v) = round v for a real v: the rotated rows are real and the step size is a positive real
  because the inputs are real (Proof/SpecLaws, Proof/Finite).
-/
import proofs.«178549_j40664750358903_2_alg».proof.Defs
import proofs.«178549_j40664750358903_2_alg».proof.Proof.Gen.Kernel
import proofs.«178549_j40664750358903_2_alg».proof.Proof.Gen.Kernel.Frame
import proofs.«178549_j40664750358903_2_alg».proof.Proof.Gen.KernelIdeal
import proofs.«178549_j40664750358903_2_alg».proof.Proof.Gen.KernelIdeal.Frame
import proofs.«178549_j40664750358903_2_alg».proof.Proof.Gen.ReferenceIdeal
import proofs.«178549_j40664750358903_2_alg».proof.Proof.Gen.ReferenceIdeal.Run
import proofs.«178549_j40664750358903_2_alg».proof.Proof.Gen.ReferenceIdeal.Read
import proofs.«178549_j40664750358903_2_alg».proof.Proof.Gen.Pre_finite_inputs
import proofs.«178549_j40664750358903_2_alg».proof.Proof.SpecLaws
import proofs.«178549_j40664750358903_2_alg».proof.Proof.Finite
import proofs.«178549_j40664750358903_2_alg».proof.Proof.BodyQ0
import proofs.«178549_j40664750358903_2_alg».proof.Proof.BodyQ1
import proofs.«178549_j40664750358903_2_alg».proof.Proof.BodyM
import proofs.«178549_j40664750358903_2_alg».proof.Proof.Region0
import proofs.«178549_j40664750358903_2_alg».proof.Proof.Region1
import proofs.«178549_j40664750358903_2_alg».proof.Proof.Region2
import proofs.«178549_j40664750358903_2_alg».proof.Proof.KValue
import proofs.«178549_j40664750358903_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the layer's result: the kernel's with 256-wide rotations, the reference's with 128-wide
    ones; the two agree because the arguments hold real numbers. -/
theorem algebraic : Cert.algebraic_KernelIdeal_ReferenceIdeal := by
  intro m ρ m' ρ' hpre hagree
  refine ⟨_, Cert.KValue.kernel_run m ρ (Cert.KRegion.final0 Cert.KBody.out0) (Cert.KRegion.final1 Cert.KBody.out1)
    (Cert.KRegion.final2 Cert.KBody.out2), ?_⟩
  refine (θ_run Cert.ReferenceIdeal.defs _ _).mono (fun _ h c => ⟨(h c).1.trans ?_, (h c).2⟩)
    (Cert.ReferenceIdeal.Value.run (F := Ideal) m' ρ')
  obtain ⟨h0, h1, h3⟩ := Cert.Finite.real_of_pre _ _ _ _ (hpre c)
  rw [Cert.ReferenceIdeal.Read.val_main_v71_eq, Cert.RefValue.ref_value, (hagree c).1, (hagree c).2.1, (hagree c).2.2.1,
    (hagree c).2.2.2]
  exact (Cert.Spec.resK_eq_resR _ _ _ _ h0 h1 h3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
